-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg8 : FVec F S128 .f32) (main_arg14 : FVec F S128 .f32) (main_arg20 : FVec F S128 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_cst_40 : FVec F S_ .f32 := constant S_ .f32 0x00000000#32
  let main_v104 : FVec F S128 .f32 := broadcastInDim S128 ![] bcast_S_S128 main_cst_40
  let main_v105 : IVec S128 1 := cmpf .oge main_arg8 main_v104
  let main_c_41 : IVec S_ 1 := constantI S_ 1 1#1
  let main_v106 : IVec S_ 1 := (fun x v => Host.reduce IntOp.andi x v reducesTo_S128_S_d0 h_S_) main_v105 main_c_41
  let main_v107 : IVec S_ 1 := andi main_v103 main_v106
  let main_cst_42 : FVec F S_ .f32 := constant S_ .f32 0x00000000#32
  let main_v108 : FVec F S128 .f32 := broadcastInDim S128 ![] bcast_S_S128 main_cst_42
  let main_v109 : IVec S128 1 := cmpf .oge main_arg14 main_v108
  let main_c_43 : IVec S_ 1 := constantI S_ 1 1#1
  let main_v110 : IVec S_ 1 := (fun x v => Host.reduce IntOp.andi x v reducesTo_S128_S_d0 h_S_) main_v109 main_c_43
  let main_v111 : IVec S_ 1 := andi main_v107 main_v110
  let main_cst_44 : FVec F S_ .f32 := constant S_ .f32 0x00000000#32
  let main_v112 : FVec F S128 .f32 := broadcastInDim S128 ![] bcast_S_S128 main_cst_44
  let main_v113 : IVec S128 1 := cmpf .oge main_arg20 main_v112
  let main_c_45 : IVec S_ 1 := constantI S_ 1 1#1
  let main_v114 : IVec S_ 1 := (fun x v => Host.reduce IntOp.andi x v reducesTo_S128_S_d0 h_S_) main_v113 main_c_45
  let main_v115 : IVec S_ 1 := andi main_v111 main_v114
  main_v115

def fn_part5 {F : FTy → Type} [FloatOps F] (main_arg8 : FVec F S128 .f32) (main_arg14 : FVec F S128 .f32) (main_arg20 : FVec F S128 .f32) (main_arg21 : FVec F S128x1 .f32) (main_arg22 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x1 .f32 := Host.absf main_arg21
  let main_cst_36 : FVec F S_ .f32 := constant S_ .f32 0x7F800000#32
  let main_v95 : FVec F S128x1 .f32 := broadcastInDim S128x1 ![] bcast_S_S128x1 main_cst_36
  let main_v96 : IVec S128x1 1 := cmpf .olt main_v94 main_v95
  let main_c_37 : IVec S_ 1 := constantI S_ 1 1#1
  let main_v97 : IVec S_ 1 := (fun x v => Host.reduce IntOp.andi x v reducesTo_S128x1_S_d0_1 h_S_) main_v96 main_c_37
  let main_v98 : IVec S_ 1 := andi main_v93 main_v97
  let main_v99 : FVec F S1 .f32 := Host.absf main_arg22
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg8 main_arg14 main_arg20 main_v98 main_v101 main_c_39

def fn_part4 {F : FTy → Type} [FloatOps F] (main_arg8 : FVec F S128 .f32) (main_arg14 : FVec F S128 .f32) (main_arg16 : FVec F S128 .f32) (main_arg17 : FVec F S128 .f32) (main_arg18 : FVec F S128 .f32) (main_arg19 : FVec F S128 .f32) (main_arg20 : FVec F S128 .f32) (main_arg21 : FVec F S128x1 .f32) (main_arg22 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg8 main_arg14 main_arg20 main_arg21 main_arg22 main_v83 main_v84 main_cst_32

def fn_part3 {F : FTy → Type} [FloatOps F] (main_arg8 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x1 .f32) (main_arg22 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg8 main_arg14 main_arg16 main_arg17 main_arg18 main_arg19 main_arg20 main_arg21 main_arg22 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x1 .f32) (main_arg22 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg8 main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x1 .f32) (main_arg22 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x1 .f32) (main_arg22 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 163
  | .vmem => 33
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x1, .f32⟩
  | 22 => ⟨S1, .f32⟩
  | 23 => ⟨S100000, .i32⟩
  | 24 => ⟨S1x1600000, .i32⟩
  | 25 => ⟨S1600000, .i32⟩
  | 26 => ⟨S1700000, .i32⟩
  | 27 => ⟨S1x1600000, .i32⟩
  | 28 => ⟨S1600000, .i32⟩
  | 29 => ⟨S1700000, .i32⟩
  | 30 => ⟨S_, .f32⟩
  | 31 => ⟨S1700000, .f32⟩
  | 32 => ⟨S_, .f32⟩
  | 33 => ⟨S100000, .f32⟩
  | 34 => ⟨S1700000x1, .i32⟩
  | 35 => ⟨S100000, .f32⟩
  | 36 => ⟨S_, .f32⟩
  | 37 => ⟨S100000, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x128, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S_, .f32⟩
  | 77 => ⟨S128, .f32⟩
  | 78 => ⟨S128, .f32⟩
  | 79 => ⟨S128, .f32⟩
  | 80 => ⟨S128, .f32⟩
  | 81 => ⟨S128, .f32⟩
  | 82 => ⟨S128, .f32⟩
  | 83 => ⟨S128, .f32⟩
  | 84 => ⟨S1x128, .f32⟩
  | 85 => ⟨S1x128, .f32⟩
  | 86 => ⟨S100000x128, .f32⟩
  | 87 => ⟨S100000x128, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x128, .f32⟩
  | 97 => ⟨S1700000x1, .f32⟩
  | 98 => ⟨S1700000x128, .f32⟩
  | 99 => ⟨S1700000x128, .f32⟩
  | 100 => ⟨S_, .f32⟩
  | 101 => ⟨S100000x128, .f32⟩
  | 102 => ⟨S1700000x1, .i32⟩
  | 103 => ⟨S100000x128, .f32⟩
  | 104 => ⟨S_, .f32⟩
  | 105 => ⟨S128, .f32⟩
  | 106 => ⟨S128, .f32⟩
  | 107 => ⟨S128, .f32⟩
  | 108 => ⟨S128, .f32⟩
  | 109 => ⟨S128, .f32⟩
  | 110 => ⟨S128, .f32⟩
  | 111 => ⟨S128, .f32⟩
  | 112 => ⟨S1x128, .f32⟩
  | 113 => ⟨S1x128, .f32⟩
  | 114 => ⟨S100000x128, .f32⟩
  | 115 => ⟨S100000x128, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x128, .f32⟩
  | 125 => ⟨S1700000x1, .f32⟩
  | 126 => ⟨S1700000x128, .f32⟩
  | 127 => ⟨S1700000x128, .f32⟩
  | _ => ⟨S100000x128, .f32⟩

abbrev hbmTy0_1 (i : Nat) : BufTy := match i % 128 with
  | 0 => ⟨S_, .f32⟩
  | 1 => ⟨S100000x128, .f32⟩
  | 2 => ⟨S1700000x1, .i32⟩
  | 3 => ⟨S100000x128, .f32⟩
  | 4 => ⟨S_, .f32⟩
  | 5 => ⟨S128, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S1x128, .f32⟩
  | 13 => ⟨S1x128, .f32⟩
  | 14 => ⟨S100000x128, .f32⟩
  | 15 => ⟨S_, .f32⟩
  | 16 => ⟨S512x128, .f32⟩
  | 17 => ⟨S100000x1, .i32⟩
  | 18 => ⟨S512x128, .f32⟩
  | 19 => ⟨S_, .f32⟩
  | 20 => ⟨S100000, .f32⟩
  | 21 => ⟨S_, .f32⟩
  | 22 => ⟨S512, .f32⟩
  | 23 => ⟨S100000x1, .i32⟩
  | 24 => ⟨S512, .f32⟩
  | 25 => ⟨S_, .f32⟩
  | 26 => ⟨S512, .f32⟩
  | 27 => ⟨S512, .f32⟩
  | 28 => ⟨S512x1, .f32⟩
  | 29 => ⟨S512x128, .f32⟩
  | 30 => ⟨S512x128, .f32⟩
  | 31 => ⟨S512x1, .f32⟩
  | 32 => ⟨S1x1, .f32⟩
  | 33 => ⟨S512x1, .f32⟩
  | 34 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_3 : Ref sig .tc := ⟨.hbm, 49, rfl⟩
abbrev main_v21 : Ref sig .tc := ⟨.hbm, 50, rfl⟩
abbrev main_v22 : Ref sig .tc := ⟨.hbm, 51, rfl⟩
abbrev main_c_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_v31 : Ref sig .tc := ⟨.hbm, 62, rfl⟩
abbrev main_c_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_8 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_9 : Ref sig .tc := ⟨.hbm, 88, rfl⟩
abbrev main_v54 : Ref sig .tc := ⟨.hbm, 89, rfl⟩
abbrev main_v55 : Ref sig .tc := ⟨.hbm, 90, rfl⟩
abbrev main_c_10 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_12 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_13 : Ref sig .tc := ⟨.hbm, 116, rfl⟩
abbrev main_v78 : Ref sig .tc := ⟨.hbm, 117, rfl⟩
abbrev main_v79 : Ref sig .tc := ⟨.hbm, 118, rfl⟩
abbrev main_c_14 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_15 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_16 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_17 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_18 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_20 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v90) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v98) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x1 : Shape := ⟨2, ![1, 1]⟩

abbrev nBuf : Space → Nat
  | .hbm => 196
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x1, .f32⟩
  | 22 => ⟨S1, .f32⟩
  | 23 => ⟨S100000, .i32⟩
  | 24 => ⟨S1x1600000, .i32⟩
  | 25 => ⟨S1600000, .i32⟩
  | 26 => ⟨S1700000, .i32⟩
  | 27 => ⟨S1x1600000, .i32⟩
  | 28 => ⟨S1600000, .i32⟩
  | 29 => ⟨S1700000, .i32⟩
  | 30 => ⟨S_, .f32⟩
  | 31 => ⟨S1700000, .f32⟩
  | 32 => ⟨S_, .f32⟩
  | 33 => ⟨S100000, .f32⟩
  | 34 => ⟨S1700000x1, .i32⟩
  | 35 => ⟨S100000, .f32⟩
  | 36 => ⟨S_, .f32⟩
  | 37 => ⟨S100000, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x128, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x1, .f32⟩
  | 109 => ⟨S1700000x128, .f32⟩
  | 110 => ⟨S1700000x128, .f32⟩
  | 111 => ⟨S_, .f32⟩
  | 112 => ⟨S100000x128, .f32⟩
  | 113 => ⟨S1700000x1, .i32⟩
  | 114 => ⟨S100000x128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S128, .f32⟩
  | 123 => ⟨S128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x128, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x128, .f32⟩
  | 19 => ⟨S1700000x1, .f32⟩
  | 20 => ⟨S1700000x128, .f32⟩
  | 21 => ⟨S1700000x128, .f32⟩
  | 22 => ⟨S_, .f32⟩
  | 23 => ⟨S100000x128, .f32⟩
  | 24 => ⟨S1700000x1, .i32⟩
  | 25 => ⟨S100000x128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S_, .f32⟩
  | 49 => ⟨S512x128, .f32⟩
  | 50 => ⟨S100000x1, .i32⟩
  | 51 => ⟨S512x128, .f32⟩
  | 52 => ⟨S_, .f32⟩
  | 53 => ⟨S100000, .f32⟩
  | 54 => ⟨S_, .f32⟩
  | 55 => ⟨S512, .f32⟩
  | 56 => ⟨S100000x1, .i32⟩
  | 57 => ⟨S512, .f32⟩
  | 58 => ⟨S_, .f32⟩
  | 59 => ⟨S512, .f32⟩
  | 60 => ⟨S512, .f32⟩
  | 61 => ⟨S512x1, .f32⟩
  | 62 => ⟨S512x128, .f32⟩
  | 63 => ⟨S512x128, .f32⟩
  | 64 => ⟨S512x1, .f32⟩
  | 65 => ⟨S1x1, .f32⟩
  | 66 => ⟨S512x1, .f32⟩
  | 67 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c : Ref sig .tc := ⟨.hbm, 40, rfl⟩
abbrev main_v14 : Ref sig .tc := ⟨.hbm, 41, rfl⟩
abbrev main_v15 : Ref sig .tc := ⟨.hbm, 42, rfl⟩
abbrev main_c_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_3 : Ref sig .tc := ⟨.hbm, 49, rfl⟩
abbrev main_v21 : Ref sig .tc := ⟨.hbm, 50, rfl⟩
abbrev main_v22 : Ref sig .tc := ⟨.hbm, 51, rfl⟩
abbrev main_c_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_v31 : Ref sig .tc := ⟨.hbm, 62, rfl⟩
abbrev main_c_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_8 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call0_cst : Ref sig .tc := ⟨.hbm, 95, rfl⟩
abbrev main_call0_v0 : Ref sig .tc := ⟨.hbm, 96, rfl⟩
abbrev main_v61 : Ref sig .tc := ⟨.hbm, 97, rfl⟩
abbrev main_v62 : Ref sig .tc := ⟨.hbm, 98, rfl⟩
abbrev main_c_9 : Ref sig .tc := ⟨.hbm, 99, rfl⟩
abbrev main_v63 : Ref sig .tc := ⟨.hbm, 100, rfl⟩
abbrev main_v64 : Ref sig .tc := ⟨.hbm, 101, rfl⟩
abbrev main_c_10 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_11 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_12 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_call1_cst : Ref sig .tc := ⟨.hbm, 134, rfl⟩
abbrev main_call1_v0 : Ref sig .tc := ⟨.hbm, 135, rfl⟩
abbrev main_v94 : Ref sig .tc := ⟨.hbm, 136, rfl⟩
abbrev main_v95 : Ref sig .tc := ⟨.hbm, 137, rfl⟩
abbrev main_c_13 : Ref sig .tc := ⟨.hbm, 138, rfl⟩
abbrev main_v96 : Ref sig .tc := ⟨.hbm, 139, rfl⟩
abbrev main_v97 : Ref sig .tc := ⟨.hbm, 140, rfl⟩
abbrev main_c_14 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_15 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_16 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_call2_cst : Ref sig .tc := ⟨.hbm, 173, rfl⟩
abbrev main_call2_v0 : Ref sig .tc := ⟨.hbm, 174, rfl⟩
abbrev main_v127 : Ref sig .tc := ⟨.hbm, 175, rfl⟩
abbrev main_cst_17 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_18 : Ref sig .tc := ⟨.hbm, 180, rfl⟩
abbrev main_v131 : Ref sig .tc := ⟨.hbm, 181, rfl⟩
abbrev main_cst_19 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_20 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The idealized kernel's run, with the whole final memory named.

  The library's launch theorem for a program of several pipelined regions among host lines gives: from any memory with
  zero counters every weakly fair execution of @main terminates, nothing faults, and at the end every buffer that
  outlives the regions holds what the fold through the eleven segments leaves there.  The generated frame keeps of this
  only "the arguments end as launched"; here the statement about every buffer is kept, so that the result buffer can be
  read (it is the fold's last boundary at that buffer) beside the arguments.
-/
import proofs.«152447_j20693152432430_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer that outlives the regions ends
    at the contents the fold through the segments leaves: the launch theorem over the generated segments, the last
    thread state read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run with the result buffer and the arguments picked out: the result at the fold's last boundary, each
    argument as launched. -/
theorem run_result : θ_run defs (onTc (τ := τ) (main (F := F))) ⟨m, fun _ => 0, ρ⟩ (fun r => ∀ c : Dev nD,
      r.2.mem ((c.tc : Thread nD τ).loc main_v116) = W11 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨h c _ (mem_uc main_v116 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c),
     (h c _ (mem_uc main_arg15 (by decide))).trans (W11_main_arg15 m ρ c),
     (h c _ (mem_uc main_arg16 (by decide))).trans (W11_main_arg16 m ρ c),
     (h c _ (mem_uc main_arg17 (by decide))).trans (W11_main_arg17 m ρ c),
     (h c _ (mem_uc main_arg18 (by decide))).trans (W11_main_arg18 m ρ c),
     (h c _ (mem_uc main_arg19 (by decide))).trans (W11_main_arg19 m ρ c),
     (h c _ (mem_uc main_arg20 (by decide))).trans (W11_main_arg20 m ρ c),
     (h c _ (mem_uc main_arg21 (by decide))).trans (W11_main_arg21 m ρ c),
     (h c _ (mem_uc main_arg22 (by decide))).trans (W11_main_arg22 m ρ c)⟩)
    (run_all m ρ)

end Cert.KernelIdeal.Run

end
-- ==== Proof.Stages.lean ====
/-
  A three-layer graph convolution network with mean pooling, cut into its stages.

  The graph has `100000` nodes and `1600000` edges; every node also gets a self-loop, so an "edge list" below has
  `1700000` entries: the given sources (or targets), then `0, 1, …, 99999`.  Each edge carries the weight
  `d(src)^(-1/2) · d(dst)^(-1/2)`, `d` the in-degree counted with the self-loop (and at least `1`).
  One layer multiplies the node features by a weight matrix, sums over each node's incoming edges the weighted
  features of the edge's source, and applies a batch normalisation with running statistics followed by `max(·, 0)`.
  The normalisation is written in two ways:
      max( (((a + b) − m) · ρ) · g + be , 0 )                    ρ = 1/√(v + e)          (`normRelu`), and
      max( a · s + t , 0 ),   s = g · ρ,   t = (b − m) · s + be                           (`foldedRelu`),
  the second with `s` and `t` laid out as one-row arrays.  The read-out averages the last layer's features over
  each of `512` graphs (the count at least `1`), multiplies by a `[128, 1]` matrix and adds a bias.

  Every stage is the operation sequence the reference program spells, over that program's shapes and dimension
  records; `refNet` is its whole result and `kerNet` the same network with the folded normalisation.
-/
import proofs.«152447_j20693152432430_1_alg».proof.ReferenceIdeal
import proofs.«152447_j20693152432430_1_alg».proof.Proof.Gen.ReferenceIdeal
import Idealize.ShloMosaic.Lib.ValueIdx
import Idealize.ShloMosaic.PureOps.Ideal.Laws

noncomputable section

namespace Cert.Net

open Idealize.ShloMosaic Idealize.ShloMosaic.ValueIdx Cert.ReferenceIdeal Cert.ReferenceIdeal.Gen

/-- A vector `[128]` recasts to one row `[1, 128]`. -/
theorem shapeCasts_S128_S1x128 : S128.ShapeCasts S1x128 := by decide

/-! ## Edge lists and edge weights -/

/-- The sources of the edges, then every node (its self-loop). -/
def srcEnds (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets of the edges, then every node (its self-loop). -/
def dstEnds (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A negative node number counted from the end. -/
def wrap (s : IVec S1700000 32) : IVec S1700000 32 :=
  select (cmpi .slt s (broadcastInDim S1700000 ![] bcast_S_S1700000 (constantI S_ 32 0#32))) (addi s (broadcastInDim S1700000 ![] bcast_S_S1700000 (constantI S_ 32 100000#32))) s

/-- A list of node numbers as a column of index vectors. -/
def colI (s : IVec S1700000 32) : IVec S1700000x1 32 := broadcastInDim S1700000x1 ![0] bcast_S1700000_S1700000x1_0 s

/-- `d^(-1/2)` per node: the in-degree with self-loops (a scatter-add of ones), at least one. -/
def invSqrtDeg (ei : IVec S2x1600000 32) : FVec Ideal S100000 .f32 :=
  Host.rsqrt (F := Ideal) (maximumf (F := Ideal) (Host.scatterAdd (F := Ideal) scatter_S100000_S1700000x1_S1700000_n_0_0_1 (broadcastInDim S100000 ![] bcast_S_S100000 (constant (F := Ideal) S_ .f32 0x00000000#32)) (colI (dstEnds ei)) (broadcastInDim S1700000 ![] bcast_S_S1700000 (constant (F := Ideal) S_ .f32 0x3F800000#32))) (broadcastInDim S100000 ![] bcast_S_S100000 (constant (F := Ideal) S_ .f32 0x3F800000#32)))

/-- The weight of every edge. -/
def edgeNorm (ei : IVec S2x1600000 32) : FVec Ideal S1700000 .f32 :=
  mulf (F := Ideal) (Host.gather gather_S100000_S1700000x1_S1700000_n_0_n_n_0_1_1 (invSqrtDeg ei) (colI (wrap (srcEnds ei)))) (Host.gather gather_S100000_S1700000x1_S1700000_n_0_n_n_0_1_1 (invSqrtDeg ei) (colI (wrap (dstEnds ei))))

/-! ## One layer -/

/-- The dense product of the node features with a weight matrix. -/
def product (h : FVec Ideal S100000x128 .f32) (w : FVec Ideal S128x128 .f32) : FVec Ideal S100000x128 .f32 :=
  Host.dotGeneral (F := Ideal) dot_S100000x128_S128x128_S100000x128_1_0_0_1_n_n none h w

/-- Per node, the sum over its incoming edges of the source's features times the edge's weight. -/
def aggregate (h : FVec Ideal S100000x128 .f32) (ei : IVec S2x1600000 32) : FVec Ideal S100000x128 .f32 :=
  Host.scatterAdd (F := Ideal) scatter_S100000x128_S1700000x1_S1700000x128_1_0_0_1 (broadcastInDim S100000x128 ![] bcast_S_S100000x128 (constant (F := Ideal) S_ .f32 0x00000000#32)) (colI (dstEnds ei)) (mulf (F := Ideal) (Host.gather gather_S100000x128_S1700000x1_S1700000x128_1_0_n_n_0_1_1128 h (colI (wrap (srcEnds ei)))) (broadcastInDim S1700000x128 ![0, 1] bcast_S1700000x1_S1700000x128_0_1 (broadcastInDim S1700000x1 ![0] bcast_S1700000_S1700000x1_0 (edgeNorm ei))))

/-- A per-channel vector repeated down the nodes. -/
def rows (u : FVec Ideal S128 .f32) : FVec Ideal S100000x128 .f32 :=
  broadcastInDim S100000x128 ![0, 1] bcast_S1x128_S100000x128_0_1 (broadcastInDim S1x128 ![1] bcast_S128_S1x128_1 u)

/-- `1/√(v + e)` per channel, `e` the binary32 number nearest `1e-5`. -/
def invDev (v : FVec Ideal S128 .f32) : FVec Ideal S128 .f32 :=
  Host.rsqrt (F := Ideal) (addf (F := Ideal) v (broadcastInDim S128 ![] bcast_S_S128 (constant (F := Ideal) S_ .f32 0x3727C5AC#32)))

/-- Bias, batch normalisation with running statistics, positive part: the plain spelling. -/
def normRelu (a : FVec Ideal S100000x128 .f32) (b g be m v : FVec Ideal S128 .f32) : FVec Ideal S100000x128 .f32 :=
  maximumf (F := Ideal) (addf (F := Ideal) (mulf (F := Ideal) (mulf (F := Ideal) (subf (F := Ideal) (addf (F := Ideal) a (rows b)) (rows m)) (rows (invDev v))) (rows g)) (rows be)) (broadcastInDim S100000x128 ![] bcast_S_S100000x128 (constant (F := Ideal) S_ .f32 0x00000000#32))

/-- The folded scale `g · ρ`. -/
def foldScale (g v : FVec Ideal S128 .f32) : FVec Ideal S128 .f32 := mulf (F := Ideal) g (invDev v)

/-- The folded shift `(b − m) · (g · ρ) + be`. -/
def foldShift (b g be m v : FVec Ideal S128 .f32) : FVec Ideal S128 .f32 := addf (F := Ideal) (mulf (F := Ideal) (subf (F := Ideal) b m) (foldScale g v)) be

/-- A per-channel vector as a one-row array. -/
def oneRow (u : FVec Ideal S128 .f32) : FVec Ideal S1x128 .f32 := shapeCast S1x128 u shapeCasts_S128_S1x128

/-- `max(a · s + t, 0)` with `s`, `t` one-row arrays: entry `(p, q)` reads `s(0, q)` and `t(0, q)`. -/
def affineRelu (a : FVec Ideal S100000x128 .f32) (s t : FVec Ideal S1x128 .f32) : FVec Ideal S100000x128 .f32 :=
  fun i => max (a i * s (ix2 (0 : Fin 1) (⟨(i 1).val, idx2_lt1 i⟩ : Fin 128)) + t (ix2 (0 : Fin 1) (⟨(i 1).val, idx2_lt1 i⟩ : Fin 128))) 0

/-- The same normalisation, folded into one multiply-add. -/
def foldedRelu (a : FVec Ideal S100000x128 .f32) (b g be m v : FVec Ideal S128 .f32) : FVec Ideal S100000x128 .f32 :=
  affineRelu a (oneRow (foldScale g v)) (oneRow (foldShift b g be m v))

/-- A layer, plain spelling. -/
def refLayer (h : FVec Ideal S100000x128 .f32) (w : FVec Ideal S128x128 .f32) (b g be m v : FVec Ideal S128 .f32) (ei : IVec S2x1600000 32) : FVec Ideal S100000x128 .f32 :=
  normRelu (aggregate (product h w) ei) b g be m v

/-- A layer, folded spelling. -/
def kerLayer (h : FVec Ideal S100000x128 .f32) (w : FVec Ideal S128x128 .f32) (b g be m v : FVec Ideal S128 .f32) (ei : IVec S2x1600000 32) : FVec Ideal S100000x128 .f32 :=
  foldedRelu (aggregate (product h w) ei) b g be m v

/-! ## The read-out -/

/-- Mean of the node features over each graph (the count at least one), a final linear map, a bias. -/
def readout (h : FVec Ideal S100000x128 .f32) (batch : IVec S100000 32) (wl : FVec Ideal S128x1 .f32) (bl : FVec Ideal S1 .f32) : FVec Ideal S512x1 .f32 :=
  addf (F := Ideal) (Host.dotGeneral (F := Ideal) dot_S512x128_S128x1_S512x1_1_0_0_1_n_n none (Host.divf (F := Ideal) (Host.scatterAdd (F := Ideal) scatter_S512x128_S100000x1_S100000x128_1_0_0_1 (broadcastInDim S512x128 ![] bcast_S_S512x128 (constant (F := Ideal) S_ .f32 0x00000000#32)) (broadcastInDim S100000x1 ![0] bcast_S100000_S100000x1_0 batch) h) (broadcastInDim S512x128 ![0, 1] bcast_S512x1_S512x128_0_1 (broadcastInDim S512x1 ![0] bcast_S512_S512x1_0 (maximumf (F := Ideal) (Host.scatterAdd (F := Ideal) scatter_S512_S100000x1_S100000_n_0_0_1 (broadcastInDim S512 ![] bcast_S_S512 (constant (F := Ideal) S_ .f32 0x00000000#32)) (broadcastInDim S100000x1 ![0] bcast_S100000_S100000x1_0 batch) (broadcastInDim S100000 ![] bcast_S_S100000 (constant (F := Ideal) S_ .f32 0x3F800000#32))) (broadcastInDim S512 ![] bcast_S_S512 (constant (F := Ideal) S_ .f32 0x3F800000#32)))))) wl) (broadcastInDim S512x1 ![0, 1] bcast_S1x1_S512x1_0_1 (broadcastInDim S1x1 ![1] bcast_S1_S1x1_1 bl))

/-! ## The two networks -/

/-- The per-layer parameters: weight, bias, scale, shift, running mean, running variance. -/
structure LayerParams where
  w : FVec Ideal S128x128 .f32
  b : FVec Ideal S128 .f32
  g : FVec Ideal S128 .f32
  be : FVec Ideal S128 .f32
  m : FVec Ideal S128 .f32
  v : FVec Ideal S128 .f32

def refNet (x : FVec Ideal S100000x128 .f32) (ei : IVec S2x1600000 32) (batch : IVec S100000 32) (p1 p2 p3 : LayerParams)
    (wl : FVec Ideal S128x1 .f32) (bl : FVec Ideal S1 .f32) : FVec Ideal S512x1 .f32 :=
  readout (refLayer (refLayer (refLayer x p1.w p1.b p1.g p1.be p1.m p1.v ei) p2.w p2.b p2.g p2.be p2.m p2.v ei) p3.w p3.b p3.g p3.be p3.m p3.v ei) batch wl bl

def kerNet (x : FVec Ideal S100000x128 .f32) (ei : IVec S2x1600000 32) (batch : IVec S100000 32) (p1 p2 p3 : LayerParams)
    (wl : FVec Ideal S128x1 .f32) (bl : FVec Ideal S1 .f32) : FVec Ideal S512x1 .f32 :=
  readout (kerLayer (kerLayer (kerLayer x p1.w p1.b p1.g p1.be p1.m p1.v ei) p2.w p2.b p2.g p2.be p2.m p2.v ei) p3.w p3.b p3.g p3.be p3.m p3.v ei) batch wl bl

end Cert.Net

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.LibDenseStages.lean ====
/-
  The dense stages of a graph convolution network on the extended reals, read entry by entry.

  A matrix product `[a, k] × [k, b]` at `(p, q)` is the sum over the inner coordinate of the products of row `p` and
  column `q`; a bias row `[1, b]` added to every row and clamped below at zero is `max (x(p,q) + r(0,q)) 0`.  Both read
  row `p` of their first operand only, so a tile of rows of the result is the result of the tile: that is all a
  row-blocked computation needs, and no entry has to be finite (nothing here distributes a product over a sum).
-/
import Idealize.ShloMosaic.Lib.ValueIdx
import Idealize.ShloMosaic.Lib.Pipeline.Value
import Idealize.ShloMosaic.Lib.ValueLayout
import Idealize.ShloMosaic.PureOps.Ideal.Laws
import proofs.«152447_j20693152432430_1_alg».proof.Proof.LibLayerLaws

noncomputable section

open scoped BigOperators

namespace Cert.Gcn

open Idealize.ShloMosaic Idealize.ShloMosaic.ValueIdx Cert.LayerLaws

variable {a k b n N : ℕ} {φ₁ φ₂ : FTy}

/-! ## The two stages -/

/-- The matrix product, as an array. -/
def mm (x : Mat a k) (w : Mat k b) : Mat a b :=
  fun i => ∑ j : Fin k, x (ix2 (⟨(i 0).val, idx2_lt0 i⟩ : Fin a) j) * w (ix2 j (⟨(i 1).val, idx2_lt1 i⟩ : Fin b))

theorem mm_apply (x : Mat a k) (w : Mat k b) (p : Fin a) (q : Fin b) :
    mm x w (ix2 p q) = ∑ j : Fin k, x (ix2 p j) * w (ix2 j q) := rfl

/-- A bias row added to every row, then the positive part. -/
def biasRelu (x : Mat a b) (r : Mat 1 b) : Mat a b :=
  fun i => max (x i + r (ix2 (0 : Fin 1) (⟨(i 1).val, idx2_lt1 i⟩ : Fin b))) 0

theorem biasRelu_apply (x : Mat a b) (r : Mat 1 b) (p : Fin a) (q : Fin b) :
    biasRelu x r (ix2 p q) = max (x (ix2 p q) + r (ix2 (0 : Fin 1) q)) 0 := rfl

/-- A bias row added to every row. -/
def addRow (x : Mat a b) (r : Mat 1 b) : Mat a b :=
  fun i => x i + r (ix2 (0 : Fin 1) (⟨(i 1).val, idx2_lt1 i⟩ : Fin b))

theorem addRow_apply (x : Mat a b) (r : Mat 1 b) (p : Fin a) (q : Fin b) :
    addRow x r (ix2 p q) = x (ix2 p q) + r (ix2 (0 : Fin 1) q) := rfl

/-- A vector as a one-row array. -/
def rowVec (v : (⟨1, ![b]⟩ : Shape).Idx → EReal) : Mat 1 b :=
  fun i => v (ix1 (⟨(i 1).val, idx2_lt1 i⟩ : Fin b))

theorem rowVec_apply (v : (⟨1, ![b]⟩ : Shape).Idx → EReal) (u : Fin 1) (q : Fin b) : rowVec v (ix2 u q) = v (ix1 q) := rfl

/-- A vector recast as `[1, b]` is that row. -/
theorem shapeCast_rowVec (v : (⟨1, ![b]⟩ : Shape).Idx → EReal) (h : (⟨1, ![b]⟩ : Shape).ShapeCasts ⟨2, ![1, b]⟩) :
    shapeCast ⟨2, ![1, b]⟩ v h = rowVec v := by
  funext i
  obtain ⟨u, q, rfl⟩ : ∃ (u : Fin 1) (q : Fin b), i = ix2 u q := ⟨i 0, i 1, eq_ix2 i⟩
  exact shapeCast_a_1a_apply v h u q

/-- A vector broadcast along a new leading unit axis is that row too. -/
theorem bcast_rowVec (v : (⟨1, ![b]⟩ : Shape).Idx → EReal) (h : (⟨1, ![b]⟩ : Shape).BroadcastsInDim ⟨2, ![1, b]⟩ ![1]) :
    broadcastInDim ⟨2, ![1, b]⟩ ![1] h v = rowVec v := by
  funext i
  obtain ⟨u, q, rfl⟩ : ∃ (u : Fin 1) (q : Fin b), i = ix2 u q := ⟨i 0, i 1, eq_ix2 i⟩
  refine broadcastInDim_apply ![1] h v (ix2 u q) (ix1 q) fun ax => ?_
  match ax with
  | ⟨0, _⟩ =>
    show q.val = if b = 1 then 0 else q.val
    split
    · have := q.isLt; omega
    · rfl

/-- A one-row array broadcast over `a` rows, read at `(p, q)`. -/
theorem bcast_rows_apply (r : Mat 1 b) (h : (⟨2, ![1, b]⟩ : Shape).BroadcastsInDim ⟨2, ![a, b]⟩ ![0, 1]) (p : Fin a) (q : Fin b) :
    broadcastInDim ⟨2, ![a, b]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if b = 1 then 0 else q.val
    split
    · have := q.isLt; omega
    · rfl

/-- A scalar broadcast to any shape, read anywhere. -/
theorem bcast_scalar_apply {t : Shape} (x : (⟨0, ![]⟩ : Shape).Idx → EReal) (h : (⟨0, ![]⟩ : Shape).BroadcastsInDim t ![]) (j : t.Idx) :
    broadcastInDim t ![] h x j = x ix0 :=
  broadcastInDim_apply ![] h x j ix0 fun ax => ax.elim0

/-! ## A tile of rows of a stage is the stage of the tile -/

theorem mm_rows (e : Fin n → Fin N) (x : Mat n k) (X : Mat N k) (w : Mat k b)
    (hx : ∀ r j, x (ix2 r j) = X (ix2 (e r) j)) (r : Fin n) (q : Fin b) :
    mm x w (ix2 r q) = mm X w (ix2 (e r) q) := by
  rw [mm_apply, mm_apply]
  exact Finset.sum_congr rfl fun j _ => by rw [hx r j]

theorem biasRelu_rows (e : Fin n → Fin N) (x : Mat n b) (X : Mat N b) (r0 : Mat 1 b)
    (hx : ∀ r q, x (ix2 r q) = X (ix2 (e r) q)) (r : Fin n) (q : Fin b) :
    biasRelu x r0 (ix2 r q) = biasRelu X r0 (ix2 (e r) q) := by
  rw [biasRelu_apply, biasRelu_apply, hx r q]

/-! ## The two spellings of a product: the accelerator's, into a zero accumulator, and the host's -/

/-- A `[a, k] × [k, b]` product into a zero accumulator at `(p, q)`, from the four facts about the record's operand indices. -/
theorem matmul_zero_apply (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.matmul D none x w (constant ⟨2, ![a, b]⟩ .f32 0x00000000#32) (ix2 p q) = ∑ j : Fin k, x (ix2 p j) * w (ix2 j q) :=
  (Ideal.matmul_constant_zero_apply D none x w (ix2 p q)).trans (sum_inner D hr hs hl0 hl1 hr0 hr1 x w p q)

/-- The host's product at `(p, q)`, the same way. -/
theorem dotGeneral_apply (D : DotDims ⟨2, ![a, k]⟩ ⟨2, ![k, b]⟩ ⟨2, ![a, b]⟩) (sched : HostSchedule)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.dotGeneral D none sched x w (ix2 p q) = ∑ j : Fin k, x (ix2 p j) * w (ix2 j q) :=
  (Ideal.dotGeneral_apply D none sched x w (ix2 p q)).trans (sum_inner D hr hs hl0 hl1 hr0 hr1 x w p q)

end Cert.Gcn

end
-- ==== Proof.DenseProduct.lean ====
/-
  The dense product of the node features with a weight matrix, read at an entry: entry `(p, q)` is the sum over the
  inner coordinate `j` of `h(p, j) · w(j, q)` — the textbook contraction, which is what a product of extended reals
  means whatever the tiling or the order of the sum.
-/
import proofs.«152447_j20693152432430_1_alg».proof.Proof.Stages
import proofs.«152447_j20693152432430_1_alg».proof.Proof.LibDenseStages

noncomputable section

open scoped BigOperators

namespace Cert.Net

open Idealize.ShloMosaic Idealize.ShloMosaic.ValueIdx Cert.ReferenceIdeal Cert.ReferenceIdeal.Gen

/-- The dimension record of the `[100000, 128] × [128, 128]` product. -/
abbrev productDims : DotDims S100000x128 S128x128 S100000x128 := dot_S100000x128_S128x128_S100000x128_1_0_0_1_n_n

theorem product_lhs0 (i : S100000x128.Idx) (q : productDims.contr.Idx) : (productDims.lhsIdx i q 0).val = (i 0).val := by
  unfold DotDims.lhsIdx
  rw [dif_neg (show ¬(0 : Fin S100000x128.rank) ∈ productDims.lhsBatch by decide), dif_pos (show (0 : Fin S100000x128.rank) ∈ productDims.lhsNonContracting by decide)]
  rfl
theorem product_lhs1 (i : S100000x128.Idx) (q : productDims.contr.Idx) : (productDims.lhsIdx i q 1).val = (q ⟨0, by decide⟩).val :=
  productDims.lhsIdx_val_of_single rfl i q
theorem product_rhs0 (i : S100000x128.Idx) (q : productDims.contr.Idx) : (productDims.rhsIdx i q 0).val = (q ⟨0, by decide⟩).val :=
  productDims.rhsIdx_val_of_single rfl i q
theorem product_rhs1 (i : S100000x128.Idx) (q : productDims.contr.Idx) : (productDims.rhsIdx i q 1).val = (i 1).val := by
  unfold DotDims.rhsIdx
  rw [dif_neg (show ¬(1 : Fin S128x128.rank) ∈ productDims.rhsBatch by decide), dif_pos (show (1 : Fin S128x128.rank) ∈ productDims.rhsNonContracting by decide)]
  rfl

/-- Entry `(p, q)` of the dense product. -/
theorem product_apply (h : FVec Ideal S100000x128 .f32) (w : FVec Ideal S128x128 .f32) (p : Fin 100000) (q : Fin 128) :
    product h w (ix2 p q) = ∑ j : Fin 128, h (ix2 p j) * w (ix2 j q) := by
  unfold product
  exact Cert.Gcn.dotGeneral_apply productDims _ rfl rfl product_lhs0 product_lhs1 product_rhs0 product_rhs1 h w p q

end Cert.Net

end
-- ==== Proof.RegionCommon.lean ====
/-
  What is common to the six pipelined regions: every one walks the `100000` nodes in `20` tiles of `5000` rows,
  reads its small operands whole at every tile, and writes each tile of its result once.
  Here: the tile product's dimension record read at an entry, and the zero offset of a whole-buffer access.
-/
import proofs.«152447_j20693152432430_1_alg».proof.Proof.Gen.KernelIdeal.Frame
import proofs.«152447_j20693152432430_1_alg».proof.Proof.DenseProduct
import Idealize.ShloMosaic.Lib.Pipeline.Value
import Idealize.ShloMosaic.Lib.ValueLayout

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

/-- The dimension record of a tile's `[5000, 128] × [128, 128]` product. -/
abbrev blockDims : DotDims S5000x128 S128x128 S5000x128 := dot_S5000x128_S128x128_S5000x128_1_0_0_1_n_n

theorem blk_lhs0 (i : S5000x128.Idx) (q : blockDims.contr.Idx) : (blockDims.lhsIdx i q 0).val = (i 0).val := by
  unfold DotDims.lhsIdx
  rw [dif_neg (show ¬(0 : Fin S5000x128.rank) ∈ blockDims.lhsBatch by decide), dif_pos (show (0 : Fin S5000x128.rank) ∈ blockDims.lhsNonContracting by decide)]
  rfl
theorem blk_lhs1 (i : S5000x128.Idx) (q : blockDims.contr.Idx) : (blockDims.lhsIdx i q 1).val = (q ⟨0, by decide⟩).val :=
  blockDims.lhsIdx_val_of_single rfl i q
theorem blk_rhs0 (i : S5000x128.Idx) (q : blockDims.contr.Idx) : (blockDims.rhsIdx i q 0).val = (q ⟨0, by decide⟩).val :=
  blockDims.rhsIdx_val_of_single rfl i q
theorem blk_rhs1 (i : S5000x128.Idx) (q : blockDims.contr.Idx) : (blockDims.rhsIdx i q 1).val = (i 1).val := by
  unfold DotDims.rhsIdx
  rw [dif_neg (show ¬(1 : Fin S128x128.rank) ∈ blockDims.rhsBatch by decide), dif_pos (show (1 : Fin S128x128.rank) ∈ blockDims.rhsNonContracting by decide)]
  rfl

/-- A whole-buffer access starts at the origin. -/
theorem hz : (![0, 0] : Fin 2 → Nat) = fun _ => 0 := funext fun a => by fin_cases a <;> rfl

end Cert.KernelIdeal.Regions

end
-- ==== Proof.Region0.lean ====
/-
  The dense-product region 0, as one function of the arrays it is entered with.

  A grid point `t` multiplies rows `5000 t … 5000 t + 4999` of the features (narrowed to bfloat16, which changes nothing
  on the extended reals) by the whole weight matrix, into a zero accumulator, and writes the tile back.  Row `r` of the
  tile's product reads row `5000 t + r` of the features only, so the tile IS tile `t` of the whole product; the `20`
  tiles cover the array, so the region's output array ends as the whole product.
-/
import proofs.«152447_j20693152432430_1_alg».proof.Proof.RegionCommon

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## Region 0: a dense product, one tile of 5000 rows per grid point -/

theorem pay0_apply (x0 : Vec Ideal S5000x128 .f32) (x1 : Vec Ideal S128x128 .f32) (r : Fin 5000) (q : Fin 128) :
    k0_pay1 x0 x1 (ix2 r q) = ∑ j : Fin 128, x0 (ix2 r j) * x1 (ix2 j q) := by
  unfold k0_pay1
  exact Cert.Gcn.matmul_zero_apply blockDims rfl rfl blk_lhs0 blk_lhs1 blk_rhs0 blk_rhs1 (truncf .bf16 x0 bitsLt_bf16_f32) (truncf .bf16 x1 bitsLt_bf16_f32) r q

/-- The printed index maps over the grid: tile `t` of the rows, the whole weight matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node whose row is row `r` of tile `t`. -/
def rowOf0 (t : Fin cfg0.N) (r : Fin 5000) : Fin 100000 :=
  ⟨5000 * t.val + r.val, by have h : t.val < 20 := lt_of_lt_of_eq t.isLt N_0; have := r.isLt; omega⟩

theorem emb0_out (t : Fin cfg0.N) (r : Fin 5000) (q : Fin 128) :
    ((cfg0.win 2).blk t).view.emb (ix2 r q) = ix2 (rowOf0 t r) q := by
  obtain ⟨-, -, -, -, e4, e5⟩ := idx0 t
  refine funext fun a => Fin.ext ?_
  match a with
  | ⟨0, _⟩ => show win0_2.index t (0 : Fin 2) * 5000 + 1 * r.val = 5000 * t.val + r.val; omega
  | ⟨1, _⟩ => show win0_2.index t (1 : Fin 2) * 128 + 1 * q.val = q.val; omega

/-- Row `r` of the tile's product is row `5000 t + r` of the whole product: it reads that row of the features only. -/
theorem entry0 (c : Dev nD) (t : Fin cfg0.N) (r : Fin 5000) (q : Fin 128) :
    k0_pay1 (iblk0 V c 0 t) (iblk0 V c 1 t) (ix2 r q)
      = Cert.Net.product (V c main_arg0) (V c main_arg3) (ix2 (rowOf0 t r) q) := by
  obtain ⟨e0, e1, e2, e3, -, -⟩ := idx0 t
  refine (pay0_apply (iblk0 V c 0 t) (iblk0 V c 1 t) r q).trans ?_
  rw [Cert.Net.product_apply]
  refine Finset.sum_congr rfl fun j _ => ?_
  congr 1
  · show V c main_arg0 (((cfg0.win 0).blk t).view.emb (ix2 r j)) = V c main_arg0 (ix2 (rowOf0 t r) j)
    refine congrArg _ (funext fun a => Fin.ext ?_)
    match a with
    | ⟨0, _⟩ => show win0_0.index t (0 : Fin 2) * 5000 + 1 * r.val = 5000 * t.val + r.val; omega
    | ⟨1, _⟩ => show win0_0.index t (1 : Fin 2) * 128 + 1 * j.val = j.val; omega
  · show V c main_arg3 (((cfg0.win 1).blk t).view.emb (ix2 j q)) = V c main_arg3 (ix2 j q)
    refine congrArg _ (funext fun a => Fin.ext ?_)
    match a with
    | ⟨0, _⟩ => show win0_1.index t (0 : Fin 2) * 128 + 1 * j.val = j.val; omega
    | ⟨1, _⟩ => show win0_1.index t (1 : Fin 2) * 128 + 1 * q.val = q.val; omega

/-- What grid point `t` writes back is tile `t` of the whole product. -/
theorem flushed0 (c : Dev nD) (t : Fin cfg0.N) :
    (dat0 V c).flushed 2 t = ((cfg0.win 2).blk t).view.read (Elt Ideal) (Cert.Net.product (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨r, q, rfl⟩ : ∃ (r : Fin 5000) (q : Fin 128), j = ix2 r q := ⟨j 0, j 1, eq_ix2 j⟩
  show k0_pay1 (iblk0 V c 0 t) (iblk0 V c 1 t) (ix2 r q)
    = Cert.Net.product (V c main_arg0) (V c main_arg3) (((cfg0.win 2).blk t).view.emb (ix2 r q))
  rw [emb0_out]
  exact entry0 V c t r q

theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row `p` lies in tile `p / 5000`: the tiles cover the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, e4, e5⟩ := idx0 t
  refine ⟨t, flush0_2 t, ?_⟩
  rw [mem_blk0]
  intro a
  have ht : t.val = (i 0).val / 5000 := rfl
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0 leaves in its output array the dense product of its two input arrays as it found them. -/
theorem final0 (c : Dev nD) :
    (dat0 V c).arrAt 2 cfg0.N = Cert.Net.product (V c main_arg0) (V c main_arg3) :=
  (dat0 V c).arrAt_eq_of_cover 2 _ (fun t _ => flushed0 V c t) cover0

end Cert.KernelIdeal.Regions

end
-- ==== Proof.Region1.lean ====
/-
  The multiply-add region 1, as one function of the arrays it is entered with.

  A grid point `t` takes rows `5000 t … 5000 t + 4999` of the aggregated features and the whole one-row scale and
  shift, and writes `max(a · s + t, 0)` of the tile back.  Entry `(r, q)` of the tile reads entry `(5000 t + r, q)` of the
  features and column `q` of the two rows, so the tile IS tile `t` of the whole array's result; the `20` tiles cover the
  array, so the region's output array ends as `max(a · s + t, 0)` of its inputs.
-/
import proofs.«152447_j20693152432430_1_alg».proof.Proof.RegionCommon

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## Region 1: one multiply-add and a positive part per entry, one tile of 5000 rows per grid point -/

theorem pay1_apply (x0 : Vec Ideal S5000x128 .f32) (s t : Vec Ideal S1x128 .f32) (r : Fin 5000) (q : Fin 128) :
    k1_pay1 x0 s t (ix2 r q) = max (x0 (ix2 r q) * s (ix2 (0 : Fin 1) q) + t (ix2 (0 : Fin 1) q)) 0 := by
  unfold k1_pay1
  simp only [shapeCast_self]
  show max (x0 (ix2 r q) * broadcastTo S5000x128 s broadcasts_S1x128_S5000x128 (ix2 r q)
      + broadcastTo S5000x128 t broadcasts_S1x128_S5000x128 (ix2 r q)) (Ideal.ofBits .f32 0x00000000#32) = _
  rw [broadcastTo_1b_ab_apply, broadcastTo_1b_ab_apply, Ideal.ofBits_zero_f32]

/-- The printed index maps over the grid: tile `t` of the rows, the whole one-row scale and shift. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The node whose row is row `r` of tile `t`. -/
def rowOf1 (t : Fin cfg1.N) (r : Fin 5000) : Fin 100000 :=
  ⟨5000 * t.val + r.val, by have h : t.val < 20 := lt_of_lt_of_eq t.isLt N_1; have := r.isLt; omega⟩

theorem emb1_out (t : Fin cfg1.N) (r : Fin 5000) (q : Fin 128) :
    ((cfg1.win 3).blk t).view.emb (ix2 r q) = ix2 (rowOf1 t r) q := by
  obtain ⟨-, -, -, -, -, -, e6, e7⟩ := idx1 t
  refine funext fun a => Fin.ext ?_
  match a with
  | ⟨0, _⟩ => show win1_3.index t (0 : Fin 2) * 5000 + 1 * r.val = 5000 * t.val + r.val; omega
  | ⟨1, _⟩ => show win1_3.index t (1 : Fin 2) * 128 + 1 * q.val = q.val; omega

/-- Entry `(r, q)` of the tile's result is entry `(5000 t + r, q)` of the whole array's. -/
theorem entry1 (c : Dev nD) (t : Fin cfg1.N) (r : Fin 5000) (q : Fin 128) :
    k1_pay1 (iblk1 V c 0 t) (iblk1 V c 1 t) (iblk1 V c 2 t) (ix2 r q)
      = Cert.Net.affineRelu (V c main_v42) (V c main_v50) (V c main_v51) (ix2 (rowOf1 t r) q) := by
  obtain ⟨e0, e1, e2, e3, e4, e5, -, -⟩ := idx1 t
  refine (pay1_apply (iblk1 V c 0 t) (iblk1 V c 1 t) (iblk1 V c 2 t) r q).trans ?_
  have h0 : iblk1 V c 0 t (ix2 r q) = V c main_v42 (ix2 (rowOf1 t r) q) := by
    show V c main_v42 (((cfg1.win 0).blk t).view.emb (ix2 r q)) = V c main_v42 (ix2 (rowOf1 t r) q)
    refine congrArg _ (funext fun a => Fin.ext ?_)
    match a with
    | ⟨0, _⟩ => show win1_0.index t (0 : Fin 2) * 5000 + 1 * r.val = 5000 * t.val + r.val; omega
    | ⟨1, _⟩ => show win1_0.index t (1 : Fin 2) * 128 + 1 * q.val = q.val; omega
  have h1 : iblk1 V c 1 t (ix2 (0 : Fin 1) q) = V c main_v50 (ix2 (0 : Fin 1) q) := by
    show V c main_v50 (((cfg1.win 1).blk t).view.emb (ix2 (0 : Fin 1) q)) = V c main_v50 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  have h2 : iblk1 V c 2 t (ix2 (0 : Fin 1) q) = V c main_v51 (ix2 (0 : Fin 1) q) := by
    show V c main_v51 (((cfg1.win 2).blk t).view.emb (ix2 (0 : Fin 1) q)) = V c main_v51 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  rw [h0, h1, h2]
  rfl

/-- What grid point `t` writes back is tile `t` of the whole result. -/
theorem flushed1 (c : Dev nD) (t : Fin cfg1.N) :
    (dat1 V c).flushed 3 t = ((cfg1.win 3).blk t).view.read (Elt Ideal) (Cert.Net.affineRelu (V c main_v42) (V c main_v50) (V c main_v51)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  funext j
  obtain ⟨r, q, rfl⟩ : ∃ (r : Fin 5000) (q : Fin 128), j = ix2 r q := ⟨j 0, j 1, eq_ix2 j⟩
  show k1_pay1 (iblk1 V c 0 t) (iblk1 V c 1 t) (iblk1 V c 2 t) (ix2 r q)
    = Cert.Net.affineRelu (V c main_v42) (V c main_v50) (V c main_v51) (((cfg1.win 3).blk t).view.emb (ix2 r q))
  rw [emb1_out]
  exact entry1 V c t r q

theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v52).slice (win1_3.rect t)).set ↔ _
  rw [View.set_slice_whole, Rect.mem_set_unit]
  exact Iff.rfl

/-- Row `p` lies in tile `p / 5000`: the tiles cover the array. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 5000, lt_of_lt_of_eq (by omega : (i 0).val / 5000 < 20) N_1.symm⟩
  obtain ⟨-, -, -, -, -, -, e6, e7⟩ := idx1 t
  refine ⟨t, flush1_3 t, ?_⟩
  rw [mem_blk1]
  intro a
  have ht : t.val = (i 0).val / 5000 := rfl
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- Region 1 leaves in its output array `max(a · s + t, 0)` of its three input arrays as it found them. -/
theorem final1 (c : Dev nD) :
    (dat1 V c).arrAt 3 cfg1.N = Cert.Net.affineRelu (V c main_v42) (V c main_v50) (V c main_v51) :=
  (dat1 V c).arrAt_eq_of_cover 3 _ (fun t _ => flushed1 V c t) cover1

end Cert.KernelIdeal.Regions

end
-- ==== Proof.Region2.lean ====
/-
  The dense-product region 2, as one function of the arrays it is entered with.

  A grid point `t` multiplies rows `5000 t … 5000 t + 4999` of the features (narrowed to bfloat16, which changes nothing
  on the extended reals) by the whole weight matrix, into a zero accumulator, and writes the tile back.  Row `r` of the
  tile's product reads row `5000 t + r` of the features only, so the tile IS tile `t` of the whole product; the `20`
  tiles cover the array, so the region's output array ends as the whole product.
-/
import proofs.«152447_j20693152432430_1_alg».proof.Proof.RegionCommon

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## Region 2: a dense product, one tile of 5000 rows per grid point -/

theorem pay2_apply (x0 : Vec Ideal S5000x128 .f32) (x1 : Vec Ideal S128x128 .f32) (r : Fin 5000) (q : Fin 128) :
    k2_pay1 x0 x1 (ix2 r q) = ∑ j : Fin 128, x0 (ix2 r j) * x1 (ix2 j q) := by
  unfold k2_pay1
  rw [shapeCast_self]
  exact Cert.Gcn.matmul_zero_apply blockDims rfl rfl blk_lhs0 blk_lhs1 blk_rhs0 blk_rhs1 (truncf .bf16 x0 bitsLt_bf16_f32) (truncf .bf16 x1 bitsLt_bf16_f32) r q

/-- The printed index maps over the grid: tile `t` of the rows, the whole weight matrix. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The node whose row is row `r` of tile `t`. -/
def rowOf2 (t : Fin cfg2.N) (r : Fin 5000) : Fin 100000 :=
  ⟨5000 * t.val + r.val, by have h : t.val < 20 := lt_of_lt_of_eq t.isLt N_2; have := r.isLt; omega⟩

theorem emb2_out (t : Fin cfg2.N) (r : Fin 5000) (q : Fin 128) :
    ((cfg2.win 2).blk t).view.emb (ix2 r q) = ix2 (rowOf2 t r) q := by
  obtain ⟨-, -, -, -, e4, e5⟩ := idx2 t
  refine funext fun a => Fin.ext ?_
  match a with
  | ⟨0, _⟩ => show win2_2.index t (0 : Fin 2) * 5000 + 1 * r.val = 5000 * t.val + r.val; omega
  | ⟨1, _⟩ => show win2_2.index t (1 : Fin 2) * 128 + 1 * q.val = q.val; omega

/-- Row `r` of the tile's product is row `5000 t + r` of the whole product: it reads that row of the features only. -/
theorem entry2 (c : Dev nD) (t : Fin cfg2.N) (r : Fin 5000) (q : Fin 128) :
    k2_pay1 (iblk2 V c 0 t) (iblk2 V c 1 t) (ix2 r q)
      = Cert.Net.product (V c main_v52) (V c main_arg9) (ix2 (rowOf2 t r) q) := by
  obtain ⟨e0, e1, e2, e3, -, -⟩ := idx2 t
  refine (pay2_apply (iblk2 V c 0 t) (iblk2 V c 1 t) r q).trans ?_
  rw [Cert.Net.product_apply]
  refine Finset.sum_congr rfl fun j _ => ?_
  congr 1
  · show V c main_v52 (((cfg2.win 0).blk t).view.emb (ix2 r j)) = V c main_v52 (ix2 (rowOf2 t r) j)
    refine congrArg _ (funext fun a => Fin.ext ?_)
    match a with
    | ⟨0, _⟩ => show win2_0.index t (0 : Fin 2) * 5000 + 1 * r.val = 5000 * t.val + r.val; omega
    | ⟨1, _⟩ => show win2_0.index t (1 : Fin 2) * 128 + 1 * j.val = j.val; omega
  · show V c main_arg9 (((cfg2.win 1).blk t).view.emb (ix2 j q)) = V c main_arg9 (ix2 j q)
    refine congrArg _ (funext fun a => Fin.ext ?_)
    match a with
    | ⟨0, _⟩ => show win2_1.index t (0 : Fin 2) * 128 + 1 * j.val = j.val; omega
    | ⟨1, _⟩ => show win2_1.index t (1 : Fin 2) * 128 + 1 * q.val = q.val; omega

/-- What grid point `t` writes back is tile `t` of the whole product. -/
theorem flushed2 (c : Dev nD) (t : Fin cfg2.N) :
    (dat2 V c).flushed 2 t = ((cfg2.win 2).blk t).view.read (Elt Ideal) (Cert.Net.product (V c main_v52) (V c main_arg9)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  obtain ⟨r, q, rfl⟩ : ∃ (r : Fin 5000) (q : Fin 128), j = ix2 r q := ⟨j 0, j 1, eq_ix2 j⟩
  show k2_pay1 (iblk2 V c 0 t) (iblk2 V c 1 t) (ix2 r q)
    = Cert.Net.product (V c main_v52) (V c main_arg9) (((cfg2.win 2).blk t).view.emb (ix2 r q))
  rw [emb2_out]
  exact entry2 V c t r q

theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v53).slice (win2_2.rect t)).set ↔ _
  rw [View.set_slice_whole, Rect.mem_set_unit]
  exact Iff.rfl

/-- Row `p` lies in tile `p / 5000`: the tiles cover the array. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 5000, lt_of_lt_of_eq (by omega : (i 0).val / 5000 < 20) N_2.symm⟩
  obtain ⟨-, -, -, -, e4, e5⟩ := idx2 t
  refine ⟨t, flush2_2 t, ?_⟩
  rw [mem_blk2]
  intro a
  have ht : t.val = (i 0).val / 5000 := rfl
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- Region 2 leaves in its output array the dense product of its two input arrays as it found them. -/
theorem final2 (c : Dev nD) :
    (dat2 V c).arrAt 2 cfg2.N = Cert.Net.product (V c main_v52) (V c main_arg9) :=
  (dat2 V c).arrAt_eq_of_cover 2 _ (fun t _ => flushed2 V c t) cover2

end Cert.KernelIdeal.Regions

end
-- ==== Proof.Region3.lean ====
/-
  The multiply-add region 3, as one function of the arrays it is entered with.

  A grid point `t` takes rows `5000 t … 5000 t + 4999` of the aggregated features and the whole one-row scale and
  shift, and writes `max(a · s + t, 0)` of the tile back.  Entry `(r, q)` of the tile reads entry `(5000 t + r, q)` of the
  features and column `q` of the two rows, so the tile IS tile `t` of the whole array's result; the `20` tiles cover the
  array, so the region's output array ends as `max(a · s + t, 0)` of its inputs.
-/
import proofs.«152447_j20693152432430_1_alg».proof.Proof.RegionCommon

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## Region 3: one multiply-add and a positive part per entry, one tile of 5000 rows per grid point -/

theorem pay3_apply (x0 : Vec Ideal S5000x128 .f32) (s t : Vec Ideal S1x128 .f32) (r : Fin 5000) (q : Fin 128) :
    k3_pay1 x0 s t (ix2 r q) = max (x0 (ix2 r q) * s (ix2 (0 : Fin 1) q) + t (ix2 (0 : Fin 1) q)) 0 := by
  unfold k3_pay1
  simp only [shapeCast_self]
  show max (x0 (ix2 r q) * broadcastTo S5000x128 s broadcasts_S1x128_S5000x128 (ix2 r q)
      + broadcastTo S5000x128 t broadcasts_S1x128_S5000x128 (ix2 r q)) (Ideal.ofBits .f32 0x00000000#32) = _
  rw [broadcastTo_1b_ab_apply, broadcastTo_1b_ab_apply, Ideal.ofBits_zero_f32]

/-- The printed index maps over the grid: tile `t` of the rows, the whole one-row scale and shift. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The node whose row is row `r` of tile `t`. -/
def rowOf3 (t : Fin cfg3.N) (r : Fin 5000) : Fin 100000 :=
  ⟨5000 * t.val + r.val, by have h : t.val < 20 := lt_of_lt_of_eq t.isLt N_3; have := r.isLt; omega⟩

theorem emb3_out (t : Fin cfg3.N) (r : Fin 5000) (q : Fin 128) :
    ((cfg3.win 3).blk t).view.emb (ix2 r q) = ix2 (rowOf3 t r) q := by
  obtain ⟨-, -, -, -, -, -, e6, e7⟩ := idx3 t
  refine funext fun a => Fin.ext ?_
  match a with
  | ⟨0, _⟩ => show win3_3.index t (0 : Fin 2) * 5000 + 1 * r.val = 5000 * t.val + r.val; omega
  | ⟨1, _⟩ => show win3_3.index t (1 : Fin 2) * 128 + 1 * q.val = q.val; omega

/-- Entry `(r, q)` of the tile's result is entry `(5000 t + r, q)` of the whole array's. -/
theorem entry3 (c : Dev nD) (t : Fin cfg3.N) (r : Fin 5000) (q : Fin 128) :
    k3_pay1 (iblk3 V c 0 t) (iblk3 V c 1 t) (iblk3 V c 2 t) (ix2 r q)
      = Cert.Net.affineRelu (V c main_v66) (V c main_v74) (V c main_v75) (ix2 (rowOf3 t r) q) := by
  obtain ⟨e0, e1, e2, e3, e4, e5, -, -⟩ := idx3 t
  refine (pay3_apply (iblk3 V c 0 t) (iblk3 V c 1 t) (iblk3 V c 2 t) r q).trans ?_
  have h0 : iblk3 V c 0 t (ix2 r q) = V c main_v66 (ix2 (rowOf3 t r) q) := by
    show V c main_v66 (((cfg3.win 0).blk t).view.emb (ix2 r q)) = V c main_v66 (ix2 (rowOf3 t r) q)
    refine congrArg _ (funext fun a => Fin.ext ?_)
    match a with
    | ⟨0, _⟩ => show win3_0.index t (0 : Fin 2) * 5000 + 1 * r.val = 5000 * t.val + r.val; omega
    | ⟨1, _⟩ => show win3_0.index t (1 : Fin 2) * 128 + 1 * q.val = q.val; omega
  have h1 : iblk3 V c 1 t (ix2 (0 : Fin 1) q) = V c main_v74 (ix2 (0 : Fin 1) q) := by
    show V c main_v74 (((cfg3.win 1).blk t).view.emb (ix2 (0 : Fin 1) q)) = V c main_v74 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  have h2 : iblk3 V c 2 t (ix2 (0 : Fin 1) q) = V c main_v75 (ix2 (0 : Fin 1) q) := by
    show V c main_v75 (((cfg3.win 2).blk t).view.emb (ix2 (0 : Fin 1) q)) = V c main_v75 (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  rw [h0, h1, h2]
  rfl

/-- What grid point `t` writes back is tile `t` of the whole result. -/
theorem flushed3 (c : Dev nD) (t : Fin cfg3.N) :
    (dat3 V c).flushed 3 t = ((cfg3.win 3).blk t).view.read (Elt Ideal) (Cert.Net.affineRelu (V c main_v66) (V c main_v74) (V c main_v75)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  funext j
  obtain ⟨r, q, rfl⟩ : ∃ (r : Fin 5000) (q : Fin 128), j = ix2 r q := ⟨j 0, j 1, eq_ix2 j⟩
  show k3_pay1 (iblk3 V c 0 t) (iblk3 V c 1 t) (iblk3 V c 2 t) (ix2 r q)
    = Cert.Net.affineRelu (V c main_v66) (V c main_v74) (V c main_v75) (((cfg3.win 3).blk t).view.emb (ix2 r q))
  rw [emb3_out]
  exact entry3 V c t r q

theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v76).slice (win3_3.rect t)).set ↔ _
  rw [View.set_slice_whole, Rect.mem_set_unit]
  exact Iff.rfl

/-- Row `p` lies in tile `p / 5000`: the tiles cover the array. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  let t : Fin cfg3.N := ⟨(i 0).val / 5000, lt_of_lt_of_eq (by omega : (i 0).val / 5000 < 20) N_3.symm⟩
  obtain ⟨-, -, -, -, -, -, e6, e7⟩ := idx3 t
  refine ⟨t, flush3_3 t, ?_⟩
  rw [mem_blk3]
  intro a
  have ht : t.val = (i 0).val / 5000 := rfl
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- Region 3 leaves in its output array `max(a · s + t, 0)` of its three input arrays as it found them. -/
theorem final3 (c : Dev nD) :
    (dat3 V c).arrAt 3 cfg3.N = Cert.Net.affineRelu (V c main_v66) (V c main_v74) (V c main_v75) :=
  (dat3 V c).arrAt_eq_of_cover 3 _ (fun t _ => flushed3 V c t) cover3

end Cert.KernelIdeal.Regions

end
-- ==== Proof.Region4.lean ====
/-
  The dense-product region 4, as one function of the arrays it is entered with.

  A grid point `t` multiplies rows `5000 t … 5000 t + 4999` of the features (narrowed to bfloat16, which changes nothing
  on the extended reals) by the whole weight matrix, into a zero accumulator, and writes the tile back.  Row `r` of the
  tile's product reads row `5000 t + r` of the features only, so the tile IS tile `t` of the whole product; the `20`
  tiles cover the array, so the region's output array ends as the whole product.
-/
import proofs.«152447_j20693152432430_1_alg».proof.Proof.RegionCommon

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## Region 4: a dense product, one tile of 5000 rows per grid point -/

theorem pay4_apply (x0 : Vec Ideal S5000x128 .f32) (x1 : Vec Ideal S128x128 .f32) (r : Fin 5000) (q : Fin 128) :
    k4_pay1 x0 x1 (ix2 r q) = ∑ j : Fin 128, x0 (ix2 r j) * x1 (ix2 j q) := by
  unfold k4_pay1
  rw [shapeCast_self]
  exact Cert.Gcn.matmul_zero_apply blockDims rfl rfl blk_lhs0 blk_lhs1 blk_rhs0 blk_rhs1 (truncf .bf16 x0 bitsLt_bf16_f32) (truncf .bf16 x1 bitsLt_bf16_f32) r q

/-- The printed index maps over the grid: tile `t` of the rows, the whole weight matrix. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The node whose row is row `r` of tile `t`. -/
def rowOf4 (t : Fin cfg4.N) (r : Fin 5000) : Fin 100000 :=
  ⟨5000 * t.val + r.val, by have h : t.val < 20 := lt_of_lt_of_eq t.isLt N_4; have := r.isLt; omega⟩

theorem emb4_out (t : Fin cfg4.N) (r : Fin 5000) (q : Fin 128) :
    ((cfg4.win 2).blk t).view.emb (ix2 r q) = ix2 (rowOf4 t r) q := by
  obtain ⟨-, -, -, -, e4, e5⟩ := idx4 t
  refine funext fun a => Fin.ext ?_
  match a with
  | ⟨0, _⟩ => show win4_2.index t (0 : Fin 2) * 5000 + 1 * r.val = 5000 * t.val + r.val; omega
  | ⟨1, _⟩ => show win4_2.index t (1 : Fin 2) * 128 + 1 * q.val = q.val; omega

/-- Row `r` of the tile's product is row `5000 t + r` of the whole product: it reads that row of the features only. -/
theorem entry4 (c : Dev nD) (t : Fin cfg4.N) (r : Fin 5000) (q : Fin 128) :
    k4_pay1 (iblk4 V c 0 t) (iblk4 V c 1 t) (ix2 r q)
      = Cert.Net.product (V c main_v76) (V c main_arg15) (ix2 (rowOf4 t r) q) := by
  obtain ⟨e0, e1, e2, e3, -, -⟩ := idx4 t
  refine (pay4_apply (iblk4 V c 0 t) (iblk4 V c 1 t) r q).trans ?_
  rw [Cert.Net.product_apply]
  refine Finset.sum_congr rfl fun j _ => ?_
  congr 1
  · show V c main_v76 (((cfg4.win 0).blk t).view.emb (ix2 r j)) = V c main_v76 (ix2 (rowOf4 t r) j)
    refine congrArg _ (funext fun a => Fin.ext ?_)
    match a with
    | ⟨0, _⟩ => show win4_0.index t (0 : Fin 2) * 5000 + 1 * r.val = 5000 * t.val + r.val; omega
    | ⟨1, _⟩ => show win4_0.index t (1 : Fin 2) * 128 + 1 * j.val = j.val; omega
  · show V c main_arg15 (((cfg4.win 1).blk t).view.emb (ix2 j q)) = V c main_arg15 (ix2 j q)
    refine congrArg _ (funext fun a => Fin.ext ?_)
    match a with
    | ⟨0, _⟩ => show win4_1.index t (0 : Fin 2) * 128 + 1 * j.val = j.val; omega
    | ⟨1, _⟩ => show win4_1.index t (1 : Fin 2) * 128 + 1 * q.val = q.val; omega

/-- What grid point `t` writes back is tile `t` of the whole product. -/
theorem flushed4 (c : Dev nD) (t : Fin cfg4.N) :
    (dat4 V c).flushed 2 t = ((cfg4.win 2).blk t).view.read (Elt Ideal) (Cert.Net.product (V c main_v76) (V c main_arg15)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  funext j
  obtain ⟨r, q, rfl⟩ : ∃ (r : Fin 5000) (q : Fin 128), j = ix2 r q := ⟨j 0, j 1, eq_ix2 j⟩
  show k4_pay1 (iblk4 V c 0 t) (iblk4 V c 1 t) (ix2 r q)
    = Cert.Net.product (V c main_v76) (V c main_arg15) (((cfg4.win 2).blk t).view.emb (ix2 r q))
  rw [emb4_out]
  exact entry4 V c t r q

theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v77).slice (win4_2.rect t)).set ↔ _
  rw [View.set_slice_whole, Rect.mem_set_unit]
  exact Iff.rfl

/-- Row `p` lies in tile `p / 5000`: the tiles cover the array. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  let t : Fin cfg4.N := ⟨(i 0).val / 5000, lt_of_lt_of_eq (by omega : (i 0).val / 5000 < 20) N_4.symm⟩
  obtain ⟨-, -, -, -, e4, e5⟩ := idx4 t
  refine ⟨t, flush4_2 t, ?_⟩
  rw [mem_blk4]
  intro a
  have ht : t.val = (i 0).val / 5000 := rfl
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- Region 4 leaves in its output array the dense product of its two input arrays as it found them. -/
theorem final4 (c : Dev nD) :
    (dat4 V c).arrAt 2 cfg4.N = Cert.Net.product (V c main_v76) (V c main_arg15) :=
  (dat4 V c).arrAt_eq_of_cover 2 _ (fun t _ => flushed4 V c t) cover4

end Cert.KernelIdeal.Regions

end
-- ==== Proof.Region5.lean ====
/-
  The multiply-add region 5, as one function of the arrays it is entered with.

  A grid point `t` takes rows `5000 t … 5000 t + 4999` of the aggregated features and the whole one-row scale and
  shift, and writes `max(a · s + t, 0)` of the tile back.  Entry `(r, q)` of the tile reads entry `(5000 t + r, q)` of the
  features and column `q` of the two rows, so the tile IS tile `t` of the whole array's result; the `20` tiles cover the
  array, so the region's output array ends as `max(a · s + t, 0)` of its inputs.
-/
import proofs.«152447_j20693152432430_1_alg».proof.Proof.RegionCommon

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-! ## Region 5: one multiply-add and a positive part per entry, one tile of 5000 rows per grid point -/

theorem pay5_apply (x0 : Vec Ideal S5000x128 .f32) (s t : Vec Ideal S1x128 .f32) (r : Fin 5000) (q : Fin 128) :
    k5_pay1 x0 s t (ix2 r q) = max (x0 (ix2 r q) * s (ix2 (0 : Fin 1) q) + t (ix2 (0 : Fin 1) q)) 0 := by
  unfold k5_pay1
  simp only [shapeCast_self]
  show max (x0 (ix2 r q) * broadcastTo S5000x128 s broadcasts_S1x128_S5000x128 (ix2 r q)
      + broadcastTo S5000x128 t broadcasts_S1x128_S5000x128 (ix2 r q)) (Ideal.ofBits .f32 0x00000000#32) = _
  rw [broadcastTo_1b_ab_apply, broadcastTo_1b_ab_apply, Ideal.ofBits_zero_f32]

/-- The printed index maps over the grid: tile `t` of the rows, the whole one-row scale and shift. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The node whose row is row `r` of tile `t`. -/
def rowOf5 (t : Fin cfg5.N) (r : Fin 5000) : Fin 100000 :=
  ⟨5000 * t.val + r.val, by have h : t.val < 20 := lt_of_lt_of_eq t.isLt N_5; have := r.isLt; omega⟩

theorem emb5_out (t : Fin cfg5.N) (r : Fin 5000) (q : Fin 128) :
    ((cfg5.win 3).blk t).view.emb (ix2 r q) = ix2 (rowOf5 t r) q := by
  obtain ⟨-, -, -, -, -, -, e6, e7⟩ := idx5 t
  refine funext fun a => Fin.ext ?_
  match a with
  | ⟨0, _⟩ => show win5_3.index t (0 : Fin 2) * 5000 + 1 * r.val = 5000 * t.val + r.val; omega
  | ⟨1, _⟩ => show win5_3.index t (1 : Fin 2) * 128 + 1 * q.val = q.val; omega

/-- Entry `(r, q)` of the tile's result is entry `(5000 t + r, q)` of the whole array's. -/
theorem entry5 (c : Dev nD) (t : Fin cfg5.N) (r : Fin 5000) (q : Fin 128) :
    k5_pay1 (iblk5 V c 0 t) (iblk5 V c 1 t) (iblk5 V c 2 t) (ix2 r q)
      = Cert.Net.affineRelu (V c main_v90) (V c main_v98) (V c main_v99) (ix2 (rowOf5 t r) q) := by
  obtain ⟨e0, e1, e2, e3, e4, e5, -, -⟩ := idx5 t
  refine (pay5_apply (iblk5 V c 0 t) (iblk5 V c 1 t) (iblk5 V c 2 t) r q).trans ?_
  have h0 : iblk5 V c 0 t (ix2 r q) = V c main_v90 (ix2 (rowOf5 t r) q) := by
    show V c main_v90 (((cfg5.win 0).blk t).view.emb (ix2 r q)) = V c main_v90 (ix2 (rowOf5 t r) q)
    refine congrArg _ (funext fun a => Fin.ext ?_)
    match a with
    | ⟨0, _⟩ => show win5_0.index t (0 : Fin 2) * 5000 + 1 * r.val = 5000 * t.val + r.val; omega
    | ⟨1, _⟩ => show win5_0.index t (1 : Fin 2) * 128 + 1 * q.val = q.val; omega
  have h1 : iblk5 V c 1 t (ix2 (0 : Fin 1) q) = V c main_v98 (ix2 (0 : Fin 1) q) := by
    show V c main_v98 (((cfg5.win 1).blk t).view.emb (ix2 (0 : Fin 1) q)) = V c main_v98 (ix2 (0 : Fin 1) q)
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  have h2 : iblk5 V c 2 t (ix2 (0 : Fin 1) q) = V c main_v99 (ix2 (0 : Fin 1) q) := by
    show V c main_v99 (((cfg5.win 2).blk t).view.emb (ix2 (0 : Fin 1) q)) = V c main_v99 (ix2 (0 : Fin 1) q)
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega
  rw [h0, h1, h2]
  rfl

/-- What grid point `t` writes back is tile `t` of the whole result. -/
theorem flushed5 (c : Dev nD) (t : Fin cfg5.N) :
    (dat5 V c).flushed 3 t = ((cfg5.win 3).blk t).view.read (Elt Ideal) (Cert.Net.affineRelu (V c main_v90) (V c main_v98) (V c main_v99)) := by
  show (cfg5.win 3).cut (grid5.coords t) ((dat5 V c).after 3 t) = _
  rw [after5_3]
  unfold out5_3
  rw [View.canon_unit_zero hz]
  simp only [View.ld_unit_zero (S := S5000x128) hz, View.ld_unit_zero (S := S1x128) hz]
  funext j
  obtain ⟨r, q, rfl⟩ : ∃ (r : Fin 5000) (q : Fin 128), j = ix2 r q := ⟨j 0, j 1, eq_ix2 j⟩
  show k5_pay1 (iblk5 V c 0 t) (iblk5 V c 1 t) (iblk5 V c 2 t) (ix2 r q)
    = Cert.Net.affineRelu (V c main_v90) (V c main_v98) (V c main_v99) (((cfg5.win 3).blk t).view.emb (ix2 r q))
  rw [emb5_out]
  exact entry5 V c t r q

theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v100).slice (win5_3.rect t)).set ↔ _
  rw [View.set_slice_whole, Rect.mem_set_unit]
  exact Iff.rfl

/-- Row `p` lies in tile `p / 5000`: the tiles cover the array. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  let t : Fin cfg5.N := ⟨(i 0).val / 5000, lt_of_lt_of_eq (by omega : (i 0).val / 5000 < 20) N_5.symm⟩
  obtain ⟨-, -, -, -, -, -, e6, e7⟩ := idx5 t
  refine ⟨t, flush5_3 t, ?_⟩
  rw [mem_blk5]
  intro a
  have ht : t.val = (i 0).val / 5000 := rfl
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- Region 5 leaves in its output array `max(a · s + t, 0)` of its three input arrays as it found them. -/
theorem final5 (c : Dev nD) :
    (dat5 V c).arrAt 3 cfg5.N = Cert.Net.affineRelu (V c main_v90) (V c main_v98) (V c main_v99) :=
  (dat5 V c).arrAt_eq_of_cover 3 _ (fun t _ => flushed5 V c t) cover5

end Cert.KernelIdeal.Regions

end
-- ==== Proof.KernelFold.lean ====
/-
  The idealized kernel's result, read through its run.

  The program is eleven segments: host lines, then — three times — a dense-product region, host lines (the aggregation
  over incoming edges and the folded scale and shift), and a multiply-add region; then the host lines of the read-out.
  The buffer contents at each boundary are a fold from the launch memory: host lines rewrite the buffers they write, a
  region rewrites its output array (to the closed form of its tiles) and nothing else.  Reading the fold at the result
  buffer, one boundary at a time, gives the network in its folded spelling of the launch contents of the arguments.
-/
import proofs.«152447_j20693152432430_1_alg».proof.Proof.Gen.KernelIdeal.Frame
import proofs.«152447_j20693152432430_1_alg».proof.Proof.Stages
import proofs.«152447_j20693152432430_1_alg».proof.Proof.Region0
import proofs.«152447_j20693152432430_1_alg».proof.Proof.Region1
import proofs.«152447_j20693152432430_1_alg».proof.Proof.Region2
import proofs.«152447_j20693152432430_1_alg».proof.Proof.Region3
import proofs.«152447_j20693152432430_1_alg».proof.Proof.Region4
import proofs.«152447_j20693152432430_1_alg».proof.Proof.Region5
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## A region leaves every buffer but its arrays as it found it -/

theorem W2_keep (r : Ref sig .tc) (h : ∀ w, Pipeline.arrRef spec0 w ≠ r) :
    W2 m ρ c (no_index (Proc.devRef .tc r)) = W1 m ρ c (Proc.devRef .tc r) := W2_of_ne m ρ c r h
theorem W4_keep (r : Ref sig .tc) (h : ∀ w, Pipeline.arrRef spec1 w ≠ r) :
    W4 m ρ c (no_index (Proc.devRef .tc r)) = W3 m ρ c (Proc.devRef .tc r) := W4_of_ne m ρ c r h
theorem W5_keep (r : Ref sig .tc) (h : ∀ w, Pipeline.arrRef spec2 w ≠ r) :
    W5 m ρ c (no_index (Proc.devRef .tc r)) = W4 m ρ c (Proc.devRef .tc r) := W5_of_ne m ρ c r h
theorem W7_keep (r : Ref sig .tc) (h : ∀ w, Pipeline.arrRef spec3 w ≠ r) :
    W7 m ρ c (no_index (Proc.devRef .tc r)) = W6 m ρ c (Proc.devRef .tc r) := W7_of_ne m ρ c r h
theorem W8_keep (r : Ref sig .tc) (h : ∀ w, Pipeline.arrRef spec4 w ≠ r) :
    W8 m ρ c (no_index (Proc.devRef .tc r)) = W7 m ρ c (Proc.devRef .tc r) := W8_of_ne m ρ c r h
theorem W10_keep (r : Ref sig .tc) (h : ∀ w, Pipeline.arrRef spec5 w ≠ r) :
    W10 m ρ c (no_index (Proc.devRef .tc r)) = W9 m ρ c (Proc.devRef .tc r) := W10_of_ne m ρ c r h

/-! ## A region's output array holds the closed form of its tiles -/

theorem W2_out : W2 m ρ c (Proc.devRef .tc main_v29)
    = Cert.Net.product (W1 m ρ c (Proc.devRef .tc main_arg0)) (W1 m ρ c (Proc.devRef .tc main_arg3)) :=
  (W2_arr m ρ c 2).trans (Regions.final0 (V1 m ρ) c)
theorem W4_out : W4 m ρ c (Proc.devRef .tc main_v52)
    = Cert.Net.affineRelu (W3 m ρ c (Proc.devRef .tc main_v42)) (W3 m ρ c (Proc.devRef .tc main_v50)) (W3 m ρ c (Proc.devRef .tc main_v51)) :=
  (W4_arr m ρ c 3).trans (Regions.final1 (V3 m ρ) c)
theorem W5_out : W5 m ρ c (Proc.devRef .tc main_v53)
    = Cert.Net.product (W4 m ρ c (Proc.devRef .tc main_v52)) (W4 m ρ c (Proc.devRef .tc main_arg9)) :=
  (W5_arr m ρ c 2).trans (Regions.final2 (V4 m ρ) c)
theorem W7_out : W7 m ρ c (Proc.devRef .tc main_v76)
    = Cert.Net.affineRelu (W6 m ρ c (Proc.devRef .tc main_v66)) (W6 m ρ c (Proc.devRef .tc main_v74)) (W6 m ρ c (Proc.devRef .tc main_v75)) :=
  (W7_arr m ρ c 3).trans (Regions.final3 (V6 m ρ) c)
theorem W8_out : W8 m ρ c (Proc.devRef .tc main_v77)
    = Cert.Net.product (W7 m ρ c (Proc.devRef .tc main_v76)) (W7 m ρ c (Proc.devRef .tc main_arg15)) :=
  (W8_arr m ρ c 2).trans (Regions.final4 (V7 m ρ) c)
theorem W10_out : W10 m ρ c (Proc.devRef .tc main_v100)
    = Cert.Net.affineRelu (W9 m ρ c (Proc.devRef .tc main_v90)) (W9 m ρ c (Proc.devRef .tc main_v98)) (W9 m ρ c (Proc.devRef .tc main_v99)) :=
  (W10_arr m ρ c 3).trans (Regions.final5 (V9 m ρ) c)

/-! ## Layer 1 -/

set_option maxHeartbeats 4000000 in
/-- The weight matrix reaches the product region as launched. -/
theorem weight1 : W1 m ρ c (Proc.devRef .tc main_arg3) = (m ((c : Thread nD τ).loc main_arg3)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]

set_option maxHeartbeats 4000000 in
/-- The node features reach the first product region as launched. -/
theorem features1 : W1 m ρ c (Proc.devRef .tc main_arg0) = (m ((c : Thread nD τ).loc main_arg0)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]

/-- The product region's output. -/
theorem prod1 : W2 m ρ c (Proc.devRef .tc main_v29) = Cert.Net.product (m ((c : Thread nD τ).loc main_arg0)) (m ((c : Thread nD τ).loc main_arg3)) := by
  rw [W2_out, features1, weight1]

set_option maxHeartbeats 4000000 in
/-- The host lines between the product and the multiply-add: the aggregation over incoming edges … -/
theorem agg1 : W3 m ρ c (Proc.devRef .tc main_v42) = Cert.Net.aggregate (W2 m ρ c (Proc.devRef .tc main_v29)) (m ((c : Thread nD τ).loc main_arg1)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]
  rfl

set_option maxHeartbeats 4000000 in
/-- … the folded scale as one row … -/
theorem scale1 : W3 m ρ c (Proc.devRef .tc main_v50) = Cert.Net.oneRow (Cert.Net.foldScale (m ((c : Thread nD τ).loc main_arg5)) (m ((c : Thread nD τ).loc main_arg8))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]
  rfl

set_option maxHeartbeats 4000000 in
/-- … and the folded shift as one row. -/
theorem shift1 : W3 m ρ c (Proc.devRef .tc main_v51) = Cert.Net.oneRow (Cert.Net.foldShift (m ((c : Thread nD τ).loc main_arg4)) (m ((c : Thread nD τ).loc main_arg5)) (m ((c : Thread nD τ).loc main_arg6)) (m ((c : Thread nD τ).loc main_arg7)) (m ((c : Thread nD τ).loc main_arg8))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]
  rfl

/-- The multiply-add region's output is the layer in its folded spelling. -/
theorem layer1 : W4 m ρ c (Proc.devRef .tc main_v52) = (Cert.Net.kerLayer (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg1))) := by
  rw [W4_out, agg1, scale1, shift1, prod1]
  rfl

/-! ## Layer 2 -/

set_option maxHeartbeats 4000000 in
/-- The weight matrix reaches the product region as launched. -/
theorem weight2 : W4 m ρ c (Proc.devRef .tc main_arg9) = (m ((c : Thread nD τ).loc main_arg9)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]

/-- The product region's output. -/
theorem prod2 : W5 m ρ c (Proc.devRef .tc main_v53) = Cert.Net.product (Cert.Net.kerLayer (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg1))) (m ((c : Thread nD τ).loc main_arg9)) := by
  rw [W5_out, layer1, weight2]

set_option maxHeartbeats 4000000 in
/-- The host lines between the product and the multiply-add: the aggregation over incoming edges … -/
theorem agg2 : W6 m ρ c (Proc.devRef .tc main_v66) = Cert.Net.aggregate (W5 m ρ c (Proc.devRef .tc main_v53)) (m ((c : Thread nD τ).loc main_arg1)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]
  rfl

set_option maxHeartbeats 4000000 in
/-- … the folded scale as one row … -/
theorem scale2 : W6 m ρ c (Proc.devRef .tc main_v74) = Cert.Net.oneRow (Cert.Net.foldScale (m ((c : Thread nD τ).loc main_arg11)) (m ((c : Thread nD τ).loc main_arg14))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]
  rfl

set_option maxHeartbeats 4000000 in
/-- … and the folded shift as one row. -/
theorem shift2 : W6 m ρ c (Proc.devRef .tc main_v75) = Cert.Net.oneRow (Cert.Net.foldShift (m ((c : Thread nD τ).loc main_arg10)) (m ((c : Thread nD τ).loc main_arg11)) (m ((c : Thread nD τ).loc main_arg12)) (m ((c : Thread nD τ).loc main_arg13)) (m ((c : Thread nD τ).loc main_arg14))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]
  rfl

/-- The multiply-add region's output is the layer in its folded spelling. -/
theorem layer2 : W7 m ρ c (Proc.devRef .tc main_v76) = (Cert.Net.kerLayer (Cert.Net.kerLayer (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg1))) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg1))) := by
  rw [W7_out, agg2, scale2, shift2, prod2]
  rfl

/-! ## Layer 3 -/

set_option maxHeartbeats 4000000 in
/-- The weight matrix reaches the product region as launched. -/
theorem weight3 : W7 m ρ c (Proc.devRef .tc main_arg15) = (m ((c : Thread nD τ).loc main_arg15)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]

/-- The product region's output. -/
theorem prod3 : W8 m ρ c (Proc.devRef .tc main_v77) = Cert.Net.product (Cert.Net.kerLayer (Cert.Net.kerLayer (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg1))) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg1))) (m ((c : Thread nD τ).loc main_arg15)) := by
  rw [W8_out, layer2, weight3]

set_option maxHeartbeats 4000000 in
/-- The host lines between the product and the multiply-add: the aggregation over incoming edges … -/
theorem agg3 : W9 m ρ c (Proc.devRef .tc main_v90) = Cert.Net.aggregate (W8 m ρ c (Proc.devRef .tc main_v77)) (m ((c : Thread nD τ).loc main_arg1)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]
  rfl

set_option maxHeartbeats 4000000 in
/-- … the folded scale as one row … -/
theorem scale3 : W9 m ρ c (Proc.devRef .tc main_v98) = Cert.Net.oneRow (Cert.Net.foldScale (m ((c : Thread nD τ).loc main_arg17)) (m ((c : Thread nD τ).loc main_arg20))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]
  rfl

set_option maxHeartbeats 4000000 in
/-- … and the folded shift as one row. -/
theorem shift3 : W9 m ρ c (Proc.devRef .tc main_v99) = Cert.Net.oneRow (Cert.Net.foldShift (m ((c : Thread nD τ).loc main_arg16)) (m ((c : Thread nD τ).loc main_arg17)) (m ((c : Thread nD τ).loc main_arg18)) (m ((c : Thread nD τ).loc main_arg19)) (m ((c : Thread nD τ).loc main_arg20))) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]
  rfl

/-- The multiply-add region's output is the layer in its folded spelling. -/
theorem layer3 : W10 m ρ c (Proc.devRef .tc main_v100) = (Cert.Net.kerLayer (Cert.Net.kerLayer (Cert.Net.kerLayer (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg1))) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg1))) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg1))) := by
  rw [W10_out, agg3, scale3, shift3, prod3]
  rfl

/-! ## The read-out -/

set_option maxHeartbeats 4000000 in
/-- The last host lines: the result from the third layer's output and the launch contents of the arguments. -/
theorem readout_eq : W11 m ρ c (Proc.devRef .tc main_v116)
    = Cert.Net.readout (W10 m ρ c (Proc.devRef .tc main_v100)) (m ((c : Thread nD τ).loc main_arg2)) (m ((c : Thread nD τ).loc main_arg21)) (m ((c : Thread nD τ).loc main_arg22)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W5_keep, W7_keep, W8_keep, W10_keep]
  rfl

/-- THE RESULT BUFFER after the run holds the network, folded spelling, of the launch contents of the arguments. -/
theorem result_eq : W11 m ρ c (Proc.devRef .tc main_v116)
    = Cert.Net.kerNet (m ((c : Thread nD τ).loc main_arg0)) (m ((c : Thread nD τ).loc main_arg1)) (m ((c : Thread nD τ).loc main_arg2)) ⟨(m ((c : Thread nD τ).loc main_arg3)), (m ((c : Thread nD τ).loc main_arg4)), (m ((c : Thread nD τ).loc main_arg5)), (m ((c : Thread nD τ).loc main_arg6)), (m ((c : Thread nD τ).loc main_arg7)), (m ((c : Thread nD τ).loc main_arg8))⟩ ⟨(m ((c : Thread nD τ).loc main_arg9)), (m ((c : Thread nD τ).loc main_arg10)), (m ((c : Thread nD τ).loc main_arg11)), (m ((c : Thread nD τ).loc main_arg12)), (m ((c : Thread nD τ).loc main_arg13)), (m ((c : Thread nD τ).loc main_arg14))⟩ ⟨(m ((c : Thread nD τ).loc main_arg15)), (m ((c : Thread nD τ).loc main_arg16)), (m ((c : Thread nD τ).loc main_arg17)), (m ((c : Thread nD τ).loc main_arg18)), (m ((c : Thread nD τ).loc main_arg19)), (m ((c : Thread nD τ).loc main_arg20))⟩ (m ((c : Thread nD τ).loc main_arg21)) (m ((c : Thread nD τ).loc main_arg22)) := by
  rw [readout_eq, layer3]
  rfl

end Cert.KernelIdeal.Fold

end
-- ==== Proof.RefIsNet.lean ====
/-
  The reference program's result is the network in its plain spelling: its operations, composed, are the stages
  in order (the same operations under their names).
-/
import proofs.«152447_j20693152432430_1_alg».proof.Proof.Stages
import proofs.«152447_j20693152432430_1_alg».proof.Proof.Gen.ReferenceIdeal.Run

noncomputable section

namespace Cert.Net

open Idealize.ShloMosaic Idealize.SL.Sem Cert.ReferenceIdeal Cert.ReferenceIdeal.Gen

set_option maxRecDepth 16384 in
/-- The reference's composed term is the network of its arguments. -/
theorem ref_result (m : (ℓ : Loc nD τ sig) → Buf (Elt Ideal) ℓ) (c : Dev nD) :
    Cert.ReferenceIdeal.Value.res_main_v143 (F := Ideal) m c
      = refNet (m ((c.tc : Thread nD τ).loc main_arg0)) (m ((c.tc : Thread nD τ).loc main_arg1)) (m ((c.tc : Thread nD τ).loc main_arg2))
          ⟨(m ((c.tc : Thread nD τ).loc main_arg3)), (m ((c.tc : Thread nD τ).loc main_arg4)), (m ((c.tc : Thread nD τ).loc main_arg5)), (m ((c.tc : Thread nD τ).loc main_arg6)), (m ((c.tc : Thread nD τ).loc main_arg7)), (m ((c.tc : Thread nD τ).loc main_arg8))⟩
          ⟨(m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14))⟩
          ⟨(m ((c.tc : Thread nD τ).loc main_arg15)), (m ((c.tc : Thread nD τ).loc main_arg16)), (m ((c.tc : Thread nD τ).loc main_arg17)), (m ((c.tc : Thread nD τ).loc main_arg18)), (m ((c.tc : Thread nD τ).loc main_arg19)), (m ((c.tc : Thread nD τ).loc main_arg20))⟩
          (m ((c.tc : Thread nD τ).loc main_arg21)) (m ((c.tc : Thread nD τ).loc main_arg22)) := by
  unfold Cert.ReferenceIdeal.Value.res_main_v143
  rfl

end Cert.Net

end
-- ==== Proof.FoldedNorm.lean ====
/-
  One batch-normalised layer written two ways, on the extended reals.

  With a per-channel scale `γ`, shift `ε`, bias `β`, mean `μ` and reciprocal deviation `ρ`, a layer applied to an
  aggregated feature `a` is either
      ((a + β) − μ) · ρ · γ + ε                       (normalise, then scale and shift), or
      a · (γ · ρ) + ((β − μ) · (γ · ρ) + ε)           (one multiply-add with a folded scale and a folded shift).
  For REAL `β, μ, γ, ρ, ε` the two agree for EVERY extended real `a`: writing `s = γ · ρ` and `c = β − μ`, both are
  `(a + c) · s + ε`, and a product by a real `s` distributes over `a + c` when `c` is real, even for `a = ±∞`
  (both sides are then `±∞` by the sign of `s`, or `c · s` when `s = 0`).  Nothing is asked of `a`.

  The reciprocal deviation is `ρ = 1 / √(ν + e)`; it is a real number as soon as the variance `ν` is real and
  non-negative and `e > 0`.  (At `ν + e = 0` it would be `+∞` and the two spellings differ: `∞ − ∞` on one side.)
-/
import Idealize.ShloMosaic.PureOps.Ideal

noncomputable section

namespace Cert.FoldedNorm

open Idealize.ShloMosaic

/-- The per-channel parameters of one layer are real numbers and the running variance is not negative. -/
structure RealParams {ι : Type} (b g be m v : ι → EReal) : Prop where
  b_real : ∀ i, ∃ r : ℝ, b i = (r : EReal)
  g_real : ∀ i, ∃ r : ℝ, g i = (r : EReal)
  be_real : ∀ i, ∃ r : ℝ, be i = (r : EReal)
  m_real : ∀ i, ∃ r : ℝ, m i = (r : EReal)
  v_real : ∀ i, ∃ r : ℝ, v i = (r : EReal)
  v_nonneg : ∀ i, (0 : EReal) ≤ v i

/-- A product by a real distributes over the sum of any extended real and a real. -/
theorem add_coe_mul_coe (a : EReal) (c s : ℝ) :
    (a + (c : EReal)) * (s : EReal) = a * (s : EReal) + (c : EReal) * (s : EReal) := by
  induction a using EReal.rec with
  | bot =>
    rw [EReal.bot_add]
    rcases lt_trichotomy s 0 with h | h | h
    · rw [EReal.bot_mul_coe_of_neg h, ← EReal.coe_mul, EReal.top_add_coe]
    · subst h; simp
    · rw [EReal.bot_mul_coe_of_pos h, EReal.bot_add]
  | coe a =>
    rw [← EReal.coe_add, ← EReal.coe_mul, ← EReal.coe_mul, ← EReal.coe_mul, ← EReal.coe_add, add_mul]
  | top =>
    rw [EReal.top_add_coe]
    rcases lt_trichotomy s 0 with h | h | h
    · rw [EReal.top_mul_coe_of_neg h, EReal.bot_add]
    · subst h; simp
    · rw [EReal.top_mul_coe_of_pos h, ← EReal.coe_mul, EReal.top_add_coe]

/-- The folded multiply-add is the normalise-scale-shift, for real parameters and any aggregated feature. -/
theorem folded_eq (a : EReal) (β μ γ ρ ε : ℝ) :
    a * ((γ : EReal) * (ρ : EReal)) + (((β : EReal) - (μ : EReal)) * ((γ : EReal) * (ρ : EReal)) + (ε : EReal))
      = ((a + (β : EReal)) - (μ : EReal)) * (ρ : EReal) * (γ : EReal) + (ε : EReal) := by
  have hs : ((γ : EReal) * (ρ : EReal)) = ((γ * ρ : ℝ) : EReal) := (EReal.coe_mul γ ρ).symm
  have hs' : ((ρ : EReal) * (γ : EReal)) = ((γ * ρ : ℝ) : EReal) := by rw [← EReal.coe_mul, mul_comm]
  have hc : ((β : EReal) - (μ : EReal)) = ((β - μ : ℝ) : EReal) := (EReal.coe_sub β μ).symm
  have h1 : (a + (β : EReal)) - (μ : EReal) = a + ((β - μ : ℝ) : EReal) := by
    rw [sub_eq_add_neg, add_assoc, ← sub_eq_add_neg, hc]
  rw [hs, hc, h1, mul_assoc, hs', add_coe_mul_coe, add_assoc]

/-- The reciprocal square root of a positive real is a real. -/
theorem rsqrt_real (ν e : ℝ) (hν : 0 ≤ ν) (he : 0 < e) :
    ∃ ρ : ℝ, Ideal.rsqrt ((ν : EReal) + (e : EReal)) = (ρ : EReal) := by
  have hpos : 0 < ν + e := by linarith
  rw [← EReal.coe_add, Ideal.rsqrt_coe, if_neg (not_lt.mpr hpos.le), if_neg (ne_of_gt hpos)]
  exact ⟨_, rfl⟩

/-- The binary32 word `0x3727C5AC` (the nearest to `1e-5`) denotes a positive real. -/
theorem eps_word : ∃ e : ℝ, 0 < e ∧ Ideal.ofBits .f32 0x3727C5AC#32 = (e : EReal) := by
  refine ⟨10995116 / 2 ^ 40, by positivity, ?_⟩
  simp [Ideal.ofBits, Ideal.ieee, -EReal.coe_mul]; norm_num

end Cert.FoldedNorm

end
-- ==== Proof.LibLayerHost.lean ====
/-
  The host's spelling of a layer's small operands, read at an index.

  A per-node count `[a]` reaches the `[a, b]` array it divides through two broadcasts: to a column `[a, 1]`, then across
  the columns; entry `(p, k)` of the result is the count of node `p`.  A bias `[b]` reaches the `[a, b]` array it is added to
  through a row `[1, b]`, then down the rows; entry `(p, q)` of the result is the bias at `q`.
  Also the layer with its mean written as a quotient, as an array.
-/
import proofs.«152447_j20693152432430_1_alg».proof.Proof.LibLayerLaws
import Idealize.ShloMosaic.Lib.Pipeline.Value

noncomputable section

open scoped BigOperators

namespace Cert.LayerLaws

open Idealize.ShloMosaic Idealize.ShloMosaic.ValueIdx

variable {α : Type} {a b : ℕ}

/-- A vector `[a]` broadcast to a column `[a, 1]` reads, at `(p, u)`, entry `p`. -/
theorem bcast_col_apply (c : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h c (ix2 p u) = c (ix1 p) := by
  refine broadcastInDim_apply ![0] h c (ix2 p u) (ix1 p) fun ax => ?_
  match ax with
  | ⟨0, _⟩ =>
    show p.val = if a = 1 then 0 else p.val
    split
    · have := p.isLt; omega
    · rfl

/-- A column `[a, 1]` broadcast across `[a, b]` reads, at `(p, k)`, the column's entry of row `p`. -/
theorem bcast_cols_apply (v : (⟨2, ![a, 1]⟩ : Shape).Idx → α)
    (h : (⟨2, ![a, 1]⟩ : Shape).BroadcastsInDim ⟨2, ![a, b]⟩ (![0, 1] : Fin 2 → Fin 2)) (p : Fin a) (k : Fin b) :
    broadcastInDim ⟨2, ![a, b]⟩ ![0, 1] h v (ix2 p k) = v (ix2 p (0 : Fin 1)) := by
  refine broadcastInDim_apply ![0, 1] h v (ix2 p k) (ix2 p (0 : Fin 1)) fun ax => ?_
  match ax with
  | ⟨0, _⟩ =>
    show p.val = if a = 1 then 0 else p.val
    split
    · have := p.isLt; omega
    · rfl
  | ⟨1, _⟩ => rfl

/-- A vector `[b]` broadcast to a row `[1, b]` reads, at `(u, q)`, entry `q`. -/
theorem bcast_row_apply (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- A row `[1, b]` broadcast down `[a, b]` reads, at `(p, q)`, the row's entry of column `q`. -/
theorem bcast_rows_apply (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

variable {n : ℕ}

/-- The layer with its mean written as a quotient, as an array. -/
def layerDiv (x s : Mat n 64) (c : (⟨1, ![n]⟩ : Shape).Idx → EReal) (Wl : Mat 64 64) (b : (⟨1, ![64]⟩ : Shape).Idx → EReal)
    (Wr : Mat 64 64) : Mat n 64 :=
  fun i => elu1 (preDiv x s c Wl b Wr ⟨(i 0).val, idx2_lt0 i⟩ ⟨(i 1).val, idx2_lt1 i⟩)

theorem layerDiv_apply (x s : Mat n 64) (c : (⟨1, ![n]⟩ : Shape).Idx → EReal) (Wl : Mat 64 64) (b : (⟨1, ![64]⟩ : Shape).Idx → EReal)
    (Wr : Mat 64 64) (p : Fin n) (q : Fin 64) : layerDiv x s c Wl b Wr (ix2 p q) = elu1 (preDiv x s c Wl b Wr p q) := rfl

/-- The product spelling of the layer is the quotient spelling when, row by row, the scale is the reciprocal of a count
    that is not zero and the bias row is the bias vector. -/
theorem layerMul_eq_layerDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64)
    (hinv : ∀ p : Fin n, inv (ix2 p (0 : Fin 1)) = Ideal.div (Ideal.ofBits .f32 0x3F800000#32) (c (ix1 p)))
    (hc : ∀ p : Fin n, c (ix1 p) ≠ 0) (hb : ∀ q : Fin 64, b2 (ix2 (0 : Fin 1) q) = b (ix1 q)) :
    layerMul x s inv Wl b2 Wr = layerDiv x s c Wl b Wr := by
  funext i
  obtain ⟨p, q, rfl⟩ : ∃ (p : Fin n) (q : Fin 64), i = ix2 p q := ⟨i 0, i 1, eq_ix2 i⟩
  rw [layerMul_apply, layerDiv_apply, preMul_eq_preDiv x s inv c Wl b2 b Wr p q (hinv p) (hc p) (hb q)]

end Cert.LayerLaws

end
-- ==== Proof.FoldedLayer.lean ====
/-
  The folded normalisation is the plain one, as arrays.

  Entry `(p, q)` of either spelling reads the aggregated feature `a(p, q)` and channel `q` of the five parameter vectors:
  the plain spelling through a row broadcast down the nodes, the folded one through its one-row scale and shift.  With the
  parameters of channel `q` real and its running variance non-negative, `1/√(v(q) + e)` is a real number (`e > 0`), and the
  two entries are the two sides of the scalar law, whatever `a(p, q)` is.
-/
import proofs.«152447_j20693152432430_1_alg».proof.Proof.Stages
import proofs.«152447_j20693152432430_1_alg».proof.Proof.FoldedNorm
import proofs.«152447_j20693152432430_1_alg».proof.Proof.LibLayerHost
import proofs.«152447_j20693152432430_1_alg».proof.Proof.LibDenseStages

noncomputable section

namespace Cert.Net

open Idealize.ShloMosaic Idealize.ShloMosaic.ValueIdx Cert.ReferenceIdeal Cert.ReferenceIdeal.Gen Cert.FoldedNorm

/-- A per-channel vector repeated down the nodes reads, at `(p, q)`, channel `q`. -/
theorem rows_apply (u : FVec Ideal S128 .f32) (p : Fin 100000) (q : Fin 128) : rows u (ix2 p q) = u (ix1 q) := by
  unfold rows
  rw [Cert.LayerLaws.bcast_rows_apply, Cert.LayerLaws.bcast_row_apply]

/-- A per-channel vector as a one-row array reads, at `(0, q)`, channel `q`. -/
theorem oneRow_apply (u : FVec Ideal S128 .f32) (q : Fin 128) : oneRow u (ix2 (0 : Fin 1) q) = u (ix1 q) := by
  unfold oneRow
  rw [Cert.Gcn.shapeCast_rowVec]
  rfl

/-- The zero array reads `0`. -/
theorem zeros_apply (i : S100000x128.Idx) :
    (broadcastInDim S100000x128 ![] bcast_S_S100000x128 (constant (F := Ideal) S_ .f32 0x00000000#32)) i = (0 : EReal) := by
  rw [Cert.Gcn.bcast_scalar_apply]
  exact Ideal.ofBits_zero_f32

/-- The reciprocal deviation of channel `q`. -/
theorem invDev_apply (v : FVec Ideal S128 .f32) (q : Fin 128) :
    invDev v (ix1 q) = Ideal.rsqrt (v (ix1 q) + Ideal.ofBits .f32 0x3727C5AC#32) := by
  unfold invDev
  show Ideal.rsqrt (v (ix1 q) + broadcastInDim S128 ![] bcast_S_S128 (constant (F := Ideal) S_ .f32 0x3727C5AC#32) (ix1 q)) = _
  rw [Cert.Gcn.bcast_scalar_apply]
  rfl

theorem affineRelu_apply (a : FVec Ideal S100000x128 .f32) (s t : FVec Ideal S1x128 .f32) (p : Fin 100000) (q : Fin 128) :
    affineRelu a s t (ix2 p q) = max (a (ix2 p q) * s (ix2 (0 : Fin 1) q) + t (ix2 (0 : Fin 1) q)) 0 := rfl

/-- Entry `(p, q)` of the folded spelling. -/
theorem foldedRelu_apply (a : FVec Ideal S100000x128 .f32) (b g be m v : FVec Ideal S128 .f32) (p : Fin 100000) (q : Fin 128) :
    foldedRelu a b g be m v (ix2 p q)
      = max (a (ix2 p q) * (g (ix1 q) * invDev v (ix1 q))
          + ((b (ix1 q) - m (ix1 q)) * (g (ix1 q) * invDev v (ix1 q)) + be (ix1 q))) 0 := by
  unfold foldedRelu
  rw [affineRelu_apply, oneRow_apply, oneRow_apply]
  rfl

/-- Entry `(p, q)` of the plain spelling. -/
theorem normRelu_apply (a : FVec Ideal S100000x128 .f32) (b g be m v : FVec Ideal S128 .f32) (p : Fin 100000) (q : Fin 128) :
    normRelu a b g be m v (ix2 p q)
      = max ((((a (ix2 p q) + b (ix1 q)) - m (ix1 q)) * invDev v (ix1 q)) * g (ix1 q) + be (ix1 q)) 0 := by
  unfold normRelu
  show max ((((a (ix2 p q) + rows b (ix2 p q)) - rows m (ix2 p q)) * rows (invDev v) (ix2 p q)) * rows g (ix2 p q) + rows be (ix2 p q))
      ((broadcastInDim S100000x128 ![] bcast_S_S100000x128 (constant (F := Ideal) S_ .f32 0x00000000#32)) (ix2 p q)) = _
  rw [rows_apply, rows_apply, rows_apply, rows_apply, rows_apply, zeros_apply]

/-- With real parameters and a non-negative running variance the two spellings are one array. -/
theorem foldedRelu_eq_normRelu (a : FVec Ideal S100000x128 .f32) (b g be m v : FVec Ideal S128 .f32) (h : RealParams b g be m v) :
    foldedRelu a b g be m v = normRelu a b g be m v := by
  funext i
  obtain ⟨p, q, rfl⟩ : ∃ (p : Fin 100000) (q : Fin 128), i = ix2 p q := ⟨i 0, i 1, eq_ix2 i⟩
  obtain ⟨β, hβ⟩ := h.b_real (ix1 q)
  obtain ⟨γ, hγ⟩ := h.g_real (ix1 q)
  obtain ⟨ε, hε⟩ := h.be_real (ix1 q)
  obtain ⟨μ, hμ⟩ := h.m_real (ix1 q)
  obtain ⟨ν, hν⟩ := h.v_real (ix1 q)
  obtain ⟨e, he, hw⟩ := eps_word
  have hν0 : 0 ≤ ν := by
    have h0 := h.v_nonneg (ix1 q)
    rw [hν] at h0
    exact_mod_cast h0
  obtain ⟨ρ, hρ⟩ := rsqrt_real ν e hν0 he
  have hinv : invDev v (ix1 q) = (ρ : EReal) := by rw [invDev_apply, hν, hw, hρ]
  rw [foldedRelu_apply, normRelu_apply, hβ, hγ, hε, hμ, hinv, folded_eq]

/-- So a layer in the folded spelling is the layer in the plain one. -/
theorem kerLayer_eq_refLayer (x : FVec Ideal S100000x128 .f32) (w : FVec Ideal S128x128 .f32) (b g be m v : FVec Ideal S128 .f32) (ei : IVec S2x1600000 32)
    (h : RealParams b g be m v) : kerLayer x w b g be m v ei = refLayer x w b g be m v ei :=
  foldedRelu_eq_normRelu _ b g be m v h

/-- And the two networks are one. -/
theorem kerNet_eq_refNet (x : FVec Ideal S100000x128 .f32) (ei : IVec S2x1600000 32) (batch : IVec S100000 32) (p1 p2 p3 : LayerParams)
    (wl : FVec Ideal S128x1 .f32) (bl : FVec Ideal S1 .f32)
    (h1 : RealParams p1.b p1.g p1.be p1.m p1.v) (h2 : RealParams p2.b p2.g p2.be p2.m p2.v) (h3 : RealParams p3.b p3.g p3.be p3.m p3.v) :
    kerNet x ei batch p1 p2 p3 wl bl = refNet x ei batch p1 p2 p3 wl bl := by
  unfold kerNet refNet
  rw [kerLayer_eq_refLayer _ _ _ _ _ _ _ _ h1, kerLayer_eq_refLayer _ _ _ _ _ _ _ _ h2, kerLayer_eq_refLayer _ _ _ _ _ _ _ _ h3]

end Cert.Net

end
-- ==== Proof.LibFiniteEntries.lean ====
/-
  "Every entry is finite", read back from its printed test.

  A precondition `jnp.all(|a| < +∞)` prints, for an argument `a` of any shape, as the comparison of `|a|` with the
  word of `+∞` broadcast from a scalar to the argument's shape, reduced by `and` over all axes from `1`; several such
  tests are joined by `and` on one-bit scalars.  On the extended reals `|x|` is `max x (−x)`, the word `0x7F800000` is
  `⊤`, and an extended real whose absolute value is below `⊤` is a real number.  So: a conjunction that is `1` has both
  conjuncts `1`, and a test that is `1` gives a real number at every entry of its argument.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.FiniteEntries

open Idealize.ShloMosaic Idealize.ShloMosaic.ValueIdx

/-- The rank-0 shape has one index. -/
instance : Subsingleton (⟨0, ![]⟩ : Shape).Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit scalars that is `1` has both conjuncts `1`. -/
theorem and_split {x y : IVec ⟨0, ![]⟩ 1} (h : andi x y ix0 = 1#1) : x ix0 = 1#1 ∧ y ix0 = 1#1 :=
  IntOp.andi_eq_one.1 h

/-- One argument's test: if "all `|a| < +∞`" came out `1`, every entry of `a` is real. -/
theorem entries_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1)
    (i : s.Idx) : ∃ r : ℝ, a i = (r : EReal) := by
  have h := Host.reduce_andi_all _ _ hr hu ix0 e i
  have h' : Ideal.cmp .olt (max (a i) (-(a i)))
      (broadcastInDim s ![] hb (constant (F := Ideal) ⟨0, ![]⟩ .f32 0x7F800000#32) i) = 1#1 := h
  rw [broadcastInDim_apply ![] hb _ i ix0 (fun ax => ax.elim0)] at h'
  have h'' : Ideal.cmp .olt (max (a i) (-(a i))) (Ideal.ofBits .f32 0x7F800000#32) = 1#1 := h'
  rw [ofBits_inf] at h''
  refine real_of_abs_lt_top (a i) ?_
  by_contra hn
  have : Ideal.cmp .olt (max (a i) (-(a i))) ⊤ = 0#1 := by
    unfold Ideal.cmp
    simp [hn]
  rw [this] at h''
  exact absurd h'' (by decide)

end Idealize.ShloMosaic.FiniteEntries

end
-- ==== Proof.LibNonnegEntries.lean ====
/-
  "Every entry is at least zero", read back from its printed test.

  A precondition `jnp.all(a >= 0)` prints, for an argument `a` of any shape, as the comparison (greater-or-equal) of
  `a` with the word of zero broadcast from a scalar to the argument's shape, reduced by `and` over all axes from `1`.
  On the extended reals the word `0x00000000` is `0` and the comparison is the order's, so a test that came out `1`
  gives `0 ≤ a i` at every entry.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.NonnegEntries

open Idealize.ShloMosaic Idealize.ShloMosaic.ValueIdx

/-- One argument's test: if "all `a ≥ 0`" came out `1`, every entry of `a` is at least zero. -/
theorem entries_nonneg {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .oge a (broadcastInDim s ![] hb (constant (F := Ideal) ⟨0, ![]⟩ .f32 0x00000000#32)))
        (constantI ⟨0, ![]⟩ 1 1#1) hr hu ix0 = 1#1)
    (i : s.Idx) : (0 : EReal) ≤ a i := by
  have h := Host.reduce_andi_all _ _ hr hu ix0 e i
  have h' : Ideal.cmp .oge (a i)
      (broadcastInDim s ![] hb (constant (F := Ideal) ⟨0, ![]⟩ .f32 0x00000000#32) i) = 1#1 := h
  rw [broadcastInDim_apply ![] hb _ i ix0 (fun ax => ax.elim0)] at h'
  have h'' : Ideal.cmp .oge (a i) (Ideal.ofBits .f32 0x00000000#32) = 1#1 := h'
  rw [Ideal.ofBits_zero_f32] at h''
  by_contra hn
  have : Ideal.cmp .oge (a i) 0 = 0#1 := by
    unfold Ideal.cmp
    simp [hn]
  rw [this] at h''
  exact absurd h'' (by decide)

end Idealize.ShloMosaic.NonnegEntries

end
-- ==== Proof.PreFacts.lean ====
/-
  What the precondition says of the per-channel parameters.

  The precondition is a conjunction of one test per float argument, "every entry has absolute value below +∞", followed
  by three tests "every entry of the running variance is at least zero" (one per layer).  A conjunction that came out
  true has every conjunct true; a true finiteness test makes every entry of its argument a real number, and a true
  sign test makes every entry at least zero.  Read off here: for each of the three layers, the bias, scale, shift,
  running mean and running variance are real, and the running variance is not negative.
-/
import proofs.«152447_j20693152432430_1_alg».proof.Pre_finite_inputs
import proofs.«152447_j20693152432430_1_alg».proof.Proof.Gen.Pre_finite_inputs
import proofs.«152447_j20693152432430_1_alg».proof.Proof.LibFiniteEntries
import proofs.«152447_j20693152432430_1_alg».proof.Proof.LibNonnegEntries
import proofs.«152447_j20693152432430_1_alg».proof.Proof.FoldedNorm

noncomputable section

namespace Cert.PreFacts

open Idealize.ShloMosaic Idealize.ShloMosaic.ValueIdx Idealize.ShloMosaic.FiniteEntries Idealize.ShloMosaic.NonnegEntries
open Cert.Pre_finite_inputs Cert.FoldedNorm

set_option maxRecDepth 16384 in
set_option maxHeartbeats 1000000 in
/-- From the precondition, the three layers' per-channel parameters are real and their running variances non-negative. -/
theorem params_of_pre [Cert.Pre_finite_inputs.Facts] (a0 : FVec Ideal S100000x128 .f32) (a1 : IVec S2x1600000 32) (a2 : IVec S100000 32) (a3 : FVec Ideal S128x128 .f32) (b1 : FVec Ideal S128 .f32) (g1 : FVec Ideal S128 .f32) (be1 : FVec Ideal S128 .f32) (m1 : FVec Ideal S128 .f32) (v1 : FVec Ideal S128 .f32) (a9 : FVec Ideal S128x128 .f32) (b2 : FVec Ideal S128 .f32) (g2 : FVec Ideal S128 .f32) (be2 : FVec Ideal S128 .f32) (m2 : FVec Ideal S128 .f32) (v2 : FVec Ideal S128 .f32) (a15 : FVec Ideal S128x128 .f32) (b3 : FVec Ideal S128 .f32) (g3 : FVec Ideal S128 .f32) (be3 : FVec Ideal S128 .f32) (m3 : FVec Ideal S128 .f32) (v3 : FVec Ideal S128 .f32) (a21 : FVec Ideal S128x1 .f32) (a22 : FVec Ideal S1 .f32)
    (h : Cert.Pre_finite_inputs.fn (F := Ideal) a0 a1 a2 a3 b1 g1 be1 m1 v1 a9 b2 g2 be2 m2 v2 a15 b3 g3 be3 m3 v3 a21 a22 = fun _ => 1#1) :
    RealParams b1 g1 be1 m1 v1 ∧ RealParams b2 g2 be2 m2 v2 ∧ RealParams b3 g3 be3 m3 v3 := by
  have h0 := congrFun h ix0
  dsimp only [fn, fn_part1, fn_part2, fn_part3, fn_part4, fn_part5, fn_part6] at h0
  obtain ⟨h0, n3⟩ := and_split h0
  obtain ⟨h0, n2⟩ := and_split h0
  obtain ⟨h0, n1⟩ := and_split h0
  obtain ⟨h0, f22⟩ := and_split h0
  obtain ⟨h0, f21⟩ := and_split h0
  obtain ⟨h0, f20⟩ := and_split h0
  obtain ⟨h0, f19⟩ := and_split h0
  obtain ⟨h0, f18⟩ := and_split h0
  obtain ⟨h0, f17⟩ := and_split h0
  obtain ⟨h0, f16⟩ := and_split h0
  obtain ⟨h0, f15⟩ := and_split h0
  obtain ⟨h0, f14⟩ := and_split h0
  obtain ⟨h0, f13⟩ := and_split h0
  obtain ⟨h0, f12⟩ := and_split h0
  obtain ⟨h0, f11⟩ := and_split h0
  obtain ⟨h0, f10⟩ := and_split h0
  obtain ⟨h0, f9⟩ := and_split h0
  obtain ⟨h0, f8⟩ := and_split h0
  obtain ⟨h0, f7⟩ := and_split h0
  obtain ⟨h0, f6⟩ := and_split h0
  obtain ⟨h0, f5⟩ := and_split h0
  obtain ⟨h0, f4⟩ := and_split h0
  exact ⟨⟨entries_real b1 _ _ _ f4, entries_real g1 _ _ _ f5, entries_real be1 _ _ _ f6, entries_real m1 _ _ _ f7, entries_real v1 _ _ _ f8, entries_nonneg v1 _ _ _ n1⟩,
    ⟨entries_real b2 _ _ _ f10, entries_real g2 _ _ _ f11, entries_real be2 _ _ _ f12, entries_real m2 _ _ _ f13, entries_real v2 _ _ _ f14, entries_nonneg v2 _ _ _ n2⟩,
    ⟨entries_real b3 _ _ _ f16, entries_real g3 _ _ _ f17, entries_real be3 _ _ _ f18, entries_real m3 _ _ _ f19, entries_real v3 _ _ _ f20, entries_nonneg v3 _ _ _ n3⟩⟩

end Cert.PreFacts

end
-- ==== Proof.lean ====
/-
  A three-layer graph convolution network with mean pooling: the Pallas program against its plain jnp reference, on the
  extended reals.

  Both programs compute, per layer, the dense product of the node features with a weight matrix, the degree-normalised
  sum over each node's incoming edges (self-loops added), and a batch normalisation with running statistics followed by
  `max(·, 0)`; then the mean over each graph and a final linear map.  The reference normalises as
  `(((a + b) − m) · ρ) · g + be` with `ρ = 1/√(v + e)`; the Pallas program folds it into one multiply-add `a · s + t` with
  `s = g · ρ` and `t = (b − m) · s + be` computed on the host, and tiles the product and the multiply-add over the nodes.

  The two agree entry by entry as soon as the per-channel parameters are real numbers and `ρ` is: the precondition gives
  finite parameters and a non-negative running variance, so `v + e > 0` (`e` is a positive binary32 number) and `ρ` is a
  positive real.  Then both spellings are `(a + (b − m)) · (g · ρ) + be`, for every extended real `a` (a product by a real
  distributes over a sum with a real summand), so nothing has to be known about the aggregated features.  Everything
  else — the edge lists, the edge weights, the aggregation, the read-out — is the same sequence of operations on both
  sides, and a tiled product or multiply-add is the whole-array one because each row of the result reads one row of
  the tiled operand.

  The frames of the two kernel programs are the generated ones; the reference's is its generated run with the result
  dropped; the idealization changes nothing that has to be accounted for (no ledger entry).
-/
import proofs.«152447_j20693152432430_1_alg».proof.Defs
import proofs.«152447_j20693152432430_1_alg».proof.Proof.Gen.Kernel
import proofs.«152447_j20693152432430_1_alg».proof.Proof.Gen.Kernel.Skeleton
import proofs.«152447_j20693152432430_1_alg».proof.Proof.Gen.Kernel.Launch
import proofs.«152447_j20693152432430_1_alg».proof.Proof.Gen.Kernel.Points
import proofs.«152447_j20693152432430_1_alg».proof.Proof.Gen.Kernel.Frame
import proofs.«152447_j20693152432430_1_alg».proof.Proof.Gen.KernelIdeal
import proofs.«152447_j20693152432430_1_alg».proof.Proof.Gen.KernelIdeal.Skeleton
import proofs.«152447_j20693152432430_1_alg».proof.Proof.Gen.KernelIdeal.Launch
import proofs.«152447_j20693152432430_1_alg».proof.Proof.Gen.KernelIdeal.Points
import proofs.«152447_j20693152432430_1_alg».proof.Proof.Gen.KernelIdeal.Frame
import proofs.«152447_j20693152432430_1_alg».proof.Proof.Gen.ReferenceIdeal
import proofs.«152447_j20693152432430_1_alg».proof.Proof.Gen.Pre_finite_inputs
import proofs.«152447_j20693152432430_1_alg».proof.Proof.Gen.ReferenceIdeal.Run
import proofs.«152447_j20693152432430_1_alg».proof.Proof.KernelRun
import proofs.«152447_j20693152432430_1_alg».proof.Proof.KernelFold
import proofs.«152447_j20693152432430_1_alg».proof.Proof.RefIsNet
import proofs.«152447_j20693152432430_1_alg».proof.Proof.FoldedLayer
import proofs.«152447_j20693152432430_1_alg».proof.Proof.PreFacts
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the network of the (agreeing) arguments: the kernel's in the folded spelling read off its run,
    the reference's in the plain spelling, and the two spellings are one array under the precondition. -/
theorem algebraic : Cert.algebraic_KernelIdeal_ReferenceIdeal := by
  intro m ρ m' ρ' hpre hagree
  refine ⟨fun c => Cert.Net.kerNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ⟨(m ((c.tc : Thread Cert.KernelIdeal.nD Cert.KernelIdeal.τ).loc Cert.KernelIdeal.main_arg3)), (m ((c.tc : Thread Cert.KernelIdeal.nD Cert.KernelIdeal.τ).loc Cert.KernelIdeal.main_arg4)), (m ((c.tc : Thread Cert.KernelIdeal.nD Cert.KernelIdeal.τ).loc Cert.KernelIdeal.main_arg5)), (m ((c.tc : Thread Cert.KernelIdeal.nD Cert.KernelIdeal.τ).loc Cert.KernelIdeal.main_arg6)), (m ((c.tc : Thread Cert.KernelIdeal.nD Cert.KernelIdeal.τ).loc Cert.KernelIdeal.main_arg7)), (m ((c.tc : Thread Cert.KernelIdeal.nD Cert.KernelIdeal.τ).loc Cert.KernelIdeal.main_arg8))⟩
      ⟨(m ((c.tc : Thread Cert.KernelIdeal.nD Cert.KernelIdeal.τ).loc Cert.KernelIdeal.main_arg9)), (m ((c.tc : Thread Cert.KernelIdeal.nD Cert.KernelIdeal.τ).loc Cert.KernelIdeal.main_arg10)), (m ((c.tc : Thread Cert.KernelIdeal.nD Cert.KernelIdeal.τ).loc Cert.KernelIdeal.main_arg11)), (m ((c.tc : Thread Cert.KernelIdeal.nD Cert.KernelIdeal.τ).loc Cert.KernelIdeal.main_arg12)), (m ((c.tc : Thread Cert.KernelIdeal.nD Cert.KernelIdeal.τ).loc Cert.KernelIdeal.main_arg13)), (m ((c.tc : Thread Cert.KernelIdeal.nD Cert.KernelIdeal.τ).loc Cert.KernelIdeal.main_arg14))⟩
      ⟨(m ((c.tc : Thread Cert.KernelIdeal.nD Cert.KernelIdeal.τ).loc Cert.KernelIdeal.main_arg15)), (m ((c.tc : Thread Cert.KernelIdeal.nD Cert.KernelIdeal.τ).loc Cert.KernelIdeal.main_arg16)), (m ((c.tc : Thread Cert.KernelIdeal.nD Cert.KernelIdeal.τ).loc Cert.KernelIdeal.main_arg17)), (m ((c.tc : Thread Cert.KernelIdeal.nD Cert.KernelIdeal.τ).loc Cert.KernelIdeal.main_arg18)), (m ((c.tc : Thread Cert.KernelIdeal.nD Cert.KernelIdeal.τ).loc Cert.KernelIdeal.main_arg19)), (m ((c.tc : Thread Cert.KernelIdeal.nD Cert.KernelIdeal.τ).loc Cert.KernelIdeal.main_arg20))⟩
      (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.Fold.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19, a20, a21, a22⟩ := hagree c
    obtain ⟨p1, p2, p3⟩ := Cert.PreFacts.params_of_pre _ _ _ _ _ _ _ _ _ _ _ _ _ _ _ _ _ _ _ _ _ _ _ (hpre c)
    rw [Cert.Net.ref_result m' c, a0, a1, a2, a3, a4, a5, a6, a7, a8, a9, a10, a11, a12, a13, a14, a15, a16, a17, a18, a19, a20, a21, a22]
    exact (Cert.Net.kerNet_eq_refNet _ _ _ _ _ _ _ _ p1 p2 p3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
